-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x32 : Shape := ⟨2, ![800000, 32]⟩
abbrev S50000x1 : Shape := ⟨2, ![50000, 1]⟩
abbrev S32x128 : Shape := ⟨2, ![32, 128]⟩
abbrev S128 : Shape := ⟨1, ![128]⟩
abbrev S128x128 : Shape := ⟨2, ![128, 128]⟩
abbrev S129x128 : Shape := ⟨2, ![129, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S50000x1 : S_.BroadcastsInDim S50000x1 (![] : Fin 0 → Fin S50000x1.rank)
  reducesTo_S50000x1_S_d0_1 : S50000x1.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S129x128 : S_.BroadcastsInDim S129x128 (![] : Fin 0 → Fin S129x128.rank)
  reducesTo_S129x128_S_d0_1 : S129x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S129x128 .f32) (main_arg9 : FVec F S128 .f32) (main_arg10 : FVec F S128x1 .f32) (main_arg11 : FVec F S1 .f32) (main_v33 : IVec S_ 1) : IVec S_ 1 :=
  let main_v34 : FVec F S129x128 .f32 := Host.absf main_arg8
  let main_cst_12 : FVec F S_ .f32 := constant S_ .f32 0x7F800000#32
  let main_v35 : FVec F S129x128 .f32 := broadcastInDim S129x128 ![] bcast_S_S129x128 main_cst_12
  let main_v36 : IVec S129x128 1 := cmpf .olt main_v34 main_v35
  let main_c_13 : IVec S_ 1 := constantI S_ 1 1#1
  let main_v37 : IVec S_ 1 := (fun x v => Host.reduce IntOp.andi x v reducesTo_S129x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S129x128 .f32) (main_arg9 : FVec F S128 .f32) (main_arg10 : FVec F S128x1 .f32) (main_arg11 : FVec F S1 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S800000x32 .f32) (main_arg3 : FVec F S50000x1 .f32) (main_arg4 : FVec F S32x128 .f32) (main_arg5 : FVec F S128 .f32) (main_arg6 : FVec F S128x128 .f32) (main_arg7 : FVec F S128 .f32) (main_arg8 : FVec F S129x128 .f32) (main_arg9 : FVec F S128 .f32) (main_arg10 : FVec F S128x1 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S50000x1 .f32 := Host.absf main_arg3
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  let main_v14 : FVec F S32x128 .f32 := Host.absf main_arg4
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000x32 : Shape := ⟨2, ![800000, 32]⟩
abbrev S50000x1 : Shape := ⟨2, ![50000, 1]⟩
abbrev S32x128 : Shape := ⟨2, ![32, 128]⟩
abbrev S128 : Shape := ⟨1, ![128]⟩
abbrev S128x128 : Shape := ⟨2, ![128, 128]⟩
abbrev S129x128 : Shape := ⟨2, ![129, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S4000x32 : Shape := ⟨2, ![4000, 32]⟩
abbrev S4000x128 : Shape := ⟨2, ![4000, 128]⟩
abbrev S1x128 : Shape := ⟨2, ![1, 128]⟩
abbrev S2000x128 : Shape := ⟨2, ![2000, 128]⟩
abbrev S2000x1 : Shape := ⟨2, ![2000, 1]⟩
abbrev S1x1 : Shape := ⟨2, ![1, 1]⟩

abbrev nBuf : Space → Nat
  | .hbm => 35
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x32, .f32⟩
  | .hbm, ⟨3, _⟩ => ⟨S50000x1, .f32⟩
  | .hbm, ⟨4, _⟩ => ⟨S32x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S129x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S128x128, .f32⟩
  | .hbm, ⟨31, _⟩ => ⟨S1x128, .f32⟩
  | .hbm, ⟨32, _⟩ => ⟨S128, .f32⟩
  | .hbm, ⟨33, _⟩ => ⟨S50000x128, .f32⟩
  | .hbm, ⟨34, _⟩ => ⟨S50000x1, .f32⟩
  | .local _ .vmem, ⟨0, _⟩ => ⟨S4000x32, .f32⟩
  | .local _ .vmem, ⟨1, _⟩ => ⟨S4000x32, .f32⟩
  | .local _ .vmem, ⟨2, _⟩ => ⟨S4000x128, .f32⟩
  | .local _ .vmem, ⟨3, _⟩ => ⟨S4000x128, .f32⟩
  | .local _ .vmem, ⟨4, _⟩ => ⟨S32x128, .f32⟩
  | .local _ .vmem, ⟨5, _⟩ => ⟨S128, .f32⟩
  | .local _ .vmem, ⟨6, _⟩ => ⟨S4000x128, .f32⟩
  | .local _ .vmem, ⟨7, _⟩ => ⟨S4000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S128, .f32⟩
  | .local _ .vmem, ⟨19, _⟩ => ⟨S128x1, .f32⟩
  | .local _ .vmem, ⟨20, _⟩ => ⟨S1, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg10_1 : Ref sig .tc := ⟨.vmem, 22, rfl⟩
abbrev cc1_stg11_0 : Ref sig .tc := ⟨.vmem, 23, rfl⟩
abbrev cc1_stg11_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem10_1 : DmaSem sig := 22
abbrev cc1_sem11_0 : DmaSem sig := 23
abbrev cc1_sem11_1 : DmaSem sig := 24

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2000x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  inb_S4000x32_S4000x32_0_0 : ∀ a, (![0, 0] : Fin 2 → Nat) a + S4000x32.size a ≤ S4000x32.size a
  h_S4000x32 : 0 < S4000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bcast_S_S50000x128 : S_.BroadcastsInDim S50000x128 (![] : Fin 0 → Fin S50000x128.rank)
  slices_S129x128_S128x128_0_0 : S129x128.Slices ![0, 0] S128x128
  slices_S129x128_S1x128_128_0 : S129x128.Slices ![128, 0] S1x128
  shapeCasts_S1x128_S128 : S1x128.ShapeCasts S128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  shapeCasts_S128x128_S128x128 : S128x128.ShapeCasts S128x128
  shapeCasts_S128_S128 : S128.ShapeCasts S128
  broadcasts_S2000x1_S2000x128 : S2000x1.Broadcasts S2000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  gather_S50000x128_S800000x1_S800000x128_1_0_n_n_0_1_1128_wf : GatherDims.WF S50000x128 S800000x1 S800000x128 [1] [0] [] [0] [] 1 ![1, 128]
  dot_S4000x32_S32x128_S4000x128_1_0_0_1_n_n_wf : DotDims.WF S4000x32 S32x128 S4000x128 [1] [0] [0] [1] [] []
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S800000x32.size a
  hwx0_0 : ∀ i : grid0.Coords, EltTy.bits .f32 = 32 ∨ (Rect.block (s := S800000x32) S4000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S800000x128.size a
  hwx0_4 : ∀ i : grid0.Coords, EltTy.bits .f32 = 32 ∨ (Rect.block (s := S800000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x1.size a ≤ S128x1.size a
  hwx1_8 : ∀ i : grid1.Coords, EltTy.bits .f32 = 32 ∨ (Rect.block (s := S128x1) S128x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1.size a ≤ S1.size a
  hwx1_9 : ∀ i : grid1.Coords, EltTy.bits .f32 = 32 ∨ (Rect.block (s := S1) S1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S50000x128.size a
  hwx1_10 : ∀ i : grid1.Coords, EltTy.bits .f32 = 32 ∨ (Rect.block (s := S50000x128) S2000x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x1.size a ≤ S50000x1.size a
  hwx1_11 : ∀ i : grid1.Coords, EltTy.bits .f32 = 32 ∨ (Rect.block (s := S50000x1) S2000x1.size (cc1_transform_11 i) (hinb1_11 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg2) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S128x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg11) S1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v18_0) S2000x128.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v18_1) S2000x1.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x32 : Shape := ⟨2, ![800000, 32]⟩
abbrev S50000x1 : Shape := ⟨2, ![50000, 1]⟩
abbrev S32x128 : Shape := ⟨2, ![32, 128]⟩
abbrev S128 : Shape := ⟨1, ![128]⟩
abbrev S128x128 : Shape := ⟨2, ![128, 128]⟩
abbrev S129x128 : Shape := ⟨2, ![129, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S800000x128 : Shape := ⟨2, ![800000, 128]⟩
abbrev S1x128 : Shape := ⟨2, ![1, 128]⟩
abbrev S_ : Shape := ⟨0, ![]⟩
abbrev S800000x1 : Shape := ⟨2, ![800000, 1]⟩
abbrev S50000x129 : Shape := ⟨2, ![50000, 129]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x32, .f32⟩
  | .hbm, ⟨3, _⟩ => ⟨S50000x1, .f32⟩
  | .hbm, ⟨4, _⟩ => ⟨S32x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S129x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S800000x128, .f32⟩
  | .hbm, ⟨17, _⟩ => ⟨S1x128, .f32⟩
  | .hbm, ⟨18, _⟩ => ⟨S800000x128, .f32⟩
  | .hbm, ⟨19, _⟩ => ⟨S800000x128, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S800000x128, .f32⟩
  | .hbm, ⟨30, _⟩ => ⟨S_, .f32⟩
  | .hbm, ⟨31, _⟩ => ⟨S800000x128, .f32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S_, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S50000x129, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S50000x1, .f32⟩
  | .hbm, ⟨65, _⟩ => ⟨S1x1, .f32⟩
  | .hbm, ⟨66, _⟩ => ⟨S50000x1, .f32⟩
  | .hbm, ⟨67, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_cst : Ref sig .tc := ⟨.hbm, 30, rfl⟩
abbrev main_call0_v0 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_2 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  concatenates_S50000x128_S50000x1_S50000x129_d1 : Shape.Concatenates [S50000x128, S50000x1] S50000x129 1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S800000x32_S32x128_S800000x128_1_0_0_1_n_n_wf : DotDims.WF S800000x32 S32x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x129_S129x128_S50000x128_1_0_0_1_n_n_wf : DotDims.WF S50000x129 S129x128 S50000x128 [1] [0] [0] [1] [] []
  dot_S50000x128_S128x1_S50000x1_1_0_0_1_n_n_wf : DotDims.WF S50000x128 S128x1 S50000x1 [1] [0] [0] [1] [] []

variable [Facts₀]

def dot_S800000x32_S32x128_S800000x128_1_0_0_1_n_n : DotDims S800000x32 S32x128 S800000x128 where
  lhsContracting := [1]
  rhsContracting := [0]
  lhsNonContracting := [0]
  rhsNonContracting := [1]
  lhsBatch := []
  rhsBatch := []
  wf := dot_S800000x32_S32x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x129_S129x128_S50000x128_1_0_0_1_n_n : DotDims S50000x129 S129x128 S50000x128 where
  lhsContracting := [1]
  rhsContracting := [0]
  lhsNonContracting := [0]
  rhsNonContracting := [1]
  lhsBatch := []
  rhsBatch := []
  wf := dot_S50000x129_S129x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Spec.lean ====
/-
  What both programs compute, written once, at the extended reals.

  A graph layer over 50000 nodes and 800000 edges. Each edge `e` forms a message from its source row `xs e` and its own
  attributes: `max (xs e + (ea e · We + be)) 0`. The messages are summed into their destination nodes (`agg`). Each node then
  takes `cv = (x + agg) · Wc + bc`, a gate `g = logistic (cv · WgM + imp · WgI + bg)`, the mix `g · cv + (1 − g) · x`, and
  the mix's product with `Wp` plus `bp`.

  Every one of these is a function of ONE row of the edge-indexed (or node-indexed) arrays and of the whole weight arrays, so
  the definitions below are generic in the number of rows `n`: a block of rows and the whole array are the same function at two
  values of `n`, and `*_rows` says that the function's value at a row only depends on that row of the arrays.
  The two float literals (the words of 0.0 and 1.0) are kept as words: both programs spell the same words.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

variable {n m : Nat}

/-- The message of edge `e` at feature `j`: the source row plus the edge's attributes through `We` and `be`, cut at zero. -/
def msgAt (ea : FVec Ideal ⟨2, ![n, 32]⟩ .f32) (xs : FVec Ideal ⟨2, ![n, 128]⟩ .f32) (We : FVec Ideal ⟨2, ![32, 128]⟩ .f32)
    (be : FVec Ideal ⟨1, ![128]⟩ .f32) (e : Fin n) (j : Fin 128) : Ideal .f32 :=
  max (xs (ix2 e j) + ((∑ k : Fin 32, ea (ix2 e k) * We (ix2 k j)) + be (ix1 j))) (Ideal.ofBits .f32 0x00000000#32)

/-- All messages. -/
def msg (ea : FVec Ideal ⟨2, ![n, 32]⟩ .f32) (xs : FVec Ideal ⟨2, ![n, 128]⟩ .f32) (We : FVec Ideal ⟨2, ![32, 128]⟩ .f32)
    (be : FVec Ideal ⟨1, ![128]⟩ .f32) : FVec Ideal ⟨2, ![n, 128]⟩ .f32 :=
  fun i => msgAt ea xs We be (i 0) (i 1)

theorem msg_apply (ea : FVec Ideal ⟨2, ![n, 32]⟩ .f32) (xs : FVec Ideal ⟨2, ![n, 128]⟩ .f32) (We : FVec Ideal ⟨2, ![32, 128]⟩ .f32)
    (be : FVec Ideal ⟨1, ![128]⟩ .f32) (e : Fin n) (j : Fin 128) : msg ea xs We be (ix2 e j) = msgAt ea xs We be e j := rfl

/-- A message only depends on its edge's row of the attributes and of the source rows. -/
theorem msgAt_rows (ea : FVec Ideal ⟨2, ![n, 32]⟩ .f32) (xs : FVec Ideal ⟨2, ![n, 128]⟩ .f32)
    (ea' : FVec Ideal ⟨2, ![m, 32]⟩ .f32) (xs' : FVec Ideal ⟨2, ![m, 128]⟩ .f32) (We : FVec Ideal ⟨2, ![32, 128]⟩ .f32)
    (be : FVec Ideal ⟨1, ![128]⟩ .f32) (e : Fin n) (e' : Fin m)
    (h1 : ∀ k, ea (ix2 e k) = ea' (ix2 e' k)) (h2 : ∀ j, xs (ix2 e j) = xs' (ix2 e' j)) (j : Fin 128) :
    msgAt ea xs We be e j = msgAt ea' xs' We be e' j := by
  simp only [msgAt, h1, h2]

/-- Node `r`'s convolved feature `j`: its own row plus the summed messages, through `Wc` and `bc`. -/
def convAt (x agg : FVec Ideal ⟨2, ![n, 128]⟩ .f32) (Wc : FVec Ideal ⟨2, ![128, 128]⟩ .f32) (bc : FVec Ideal ⟨1, ![128]⟩ .f32)
    (r : Fin n) (j : Fin 128) : Ideal .f32 :=
  (∑ k : Fin 128, (x (ix2 r k) + agg (ix2 r k)) * Wc (ix2 k j)) + bc (ix1 j)

/-- Node `r`'s gate at feature `j`: the logistic of its convolved row through `WgM`, plus its importance times `WgI`, plus `bg`. -/
def gateAt (x agg : FVec Ideal ⟨2, ![n, 128]⟩ .f32) (imp : FVec Ideal ⟨2, ![n, 1]⟩ .f32) (Wc : FVec Ideal ⟨2, ![128, 128]⟩ .f32)
    (bc : FVec Ideal ⟨1, ![128]⟩ .f32) (WgM : FVec Ideal ⟨2, ![128, 128]⟩ .f32) (WgI bg : FVec Ideal ⟨1, ![128]⟩ .f32)
    (r : Fin n) (j : Fin 128) : Ideal .f32 :=
  Ideal.logistic (((∑ k : Fin 128, convAt x agg Wc bc r k * WgM (ix2 k j)) + imp (ix2 r 0) * WgI (ix1 j)) + bg (ix1 j))

/-- Node `r`'s new feature `j`: the gate's mix of the convolved feature and the old one. -/
def outAt (x agg : FVec Ideal ⟨2, ![n, 128]⟩ .f32) (imp : FVec Ideal ⟨2, ![n, 1]⟩ .f32) (Wc : FVec Ideal ⟨2, ![128, 128]⟩ .f32)
    (bc : FVec Ideal ⟨1, ![128]⟩ .f32) (WgM : FVec Ideal ⟨2, ![128, 128]⟩ .f32) (WgI bg : FVec Ideal ⟨1, ![128]⟩ .f32)
    (r : Fin n) (j : Fin 128) : Ideal .f32 :=
  gateAt x agg imp Wc bc WgM WgI bg r j * convAt x agg Wc bc r j
    + (Ideal.ofBits .f32 0x3F800000#32 - gateAt x agg imp Wc bc WgM WgI bg r j) * x (ix2 r j)

/-- Node `r`'s propagated importance: its new row through `Wp`, plus `bp`. -/
def propAt (x agg : FVec Ideal ⟨2, ![n, 128]⟩ .f32) (imp : FVec Ideal ⟨2, ![n, 1]⟩ .f32) (Wc : FVec Ideal ⟨2, ![128, 128]⟩ .f32)
    (bc : FVec Ideal ⟨1, ![128]⟩ .f32) (WgM : FVec Ideal ⟨2, ![128, 128]⟩ .f32) (WgI bg : FVec Ideal ⟨1, ![128]⟩ .f32)
    (Wp : FVec Ideal ⟨2, ![128, 1]⟩ .f32) (bp : FVec Ideal ⟨1, ![1]⟩ .f32) (r : Fin n) (j : Fin 1) : Ideal .f32 :=
  (∑ k : Fin 128, outAt x agg imp Wc bc WgM WgI bg r k * Wp (ix2 k j)) + bp (ix1 j)

/-- All new features. -/
def out (x agg : FVec Ideal ⟨2, ![n, 128]⟩ .f32) (imp : FVec Ideal ⟨2, ![n, 1]⟩ .f32) (Wc : FVec Ideal ⟨2, ![128, 128]⟩ .f32)
    (bc : FVec Ideal ⟨1, ![128]⟩ .f32) (WgM : FVec Ideal ⟨2, ![128, 128]⟩ .f32) (WgI bg : FVec Ideal ⟨1, ![128]⟩ .f32) :
    FVec Ideal ⟨2, ![n, 128]⟩ .f32 :=
  fun i => outAt x agg imp Wc bc WgM WgI bg (i 0) (i 1)

/-- All propagated importances. -/
def prop (x agg : FVec Ideal ⟨2, ![n, 128]⟩ .f32) (imp : FVec Ideal ⟨2, ![n, 1]⟩ .f32) (Wc : FVec Ideal ⟨2, ![128, 128]⟩ .f32)
    (bc : FVec Ideal ⟨1, ![128]⟩ .f32) (WgM : FVec Ideal ⟨2, ![128, 128]⟩ .f32) (WgI bg : FVec Ideal ⟨1, ![128]⟩ .f32)
    (Wp : FVec Ideal ⟨2, ![128, 1]⟩ .f32) (bp : FVec Ideal ⟨1, ![1]⟩ .f32) : FVec Ideal ⟨2, ![n, 1]⟩ .f32 :=
  fun i => propAt x agg imp Wc bc WgM WgI bg Wp bp (i 0) (i 1)

theorem out_apply (x agg : FVec Ideal ⟨2, ![n, 128]⟩ .f32) (imp : FVec Ideal ⟨2, ![n, 1]⟩ .f32) (Wc : FVec Ideal ⟨2, ![128, 128]⟩ .f32)
    (bc : FVec Ideal ⟨1, ![128]⟩ .f32) (WgM : FVec Ideal ⟨2, ![128, 128]⟩ .f32) (WgI bg : FVec Ideal ⟨1, ![128]⟩ .f32)
    (r : Fin n) (j : Fin 128) : out x agg imp Wc bc WgM WgI bg (ix2 r j) = outAt x agg imp Wc bc WgM WgI bg r j := rfl

theorem prop_apply (x agg : FVec Ideal ⟨2, ![n, 128]⟩ .f32) (imp : FVec Ideal ⟨2, ![n, 1]⟩ .f32) (Wc : FVec Ideal ⟨2, ![128, 128]⟩ .f32)
    (bc : FVec Ideal ⟨1, ![128]⟩ .f32) (WgM : FVec Ideal ⟨2, ![128, 128]⟩ .f32) (WgI bg : FVec Ideal ⟨1, ![128]⟩ .f32)
    (Wp : FVec Ideal ⟨2, ![128, 1]⟩ .f32) (bp : FVec Ideal ⟨1, ![1]⟩ .f32) (r : Fin n) (j : Fin 1) :
    prop x agg imp Wc bc WgM WgI bg Wp bp (ix2 r j) = propAt x agg imp Wc bc WgM WgI bg Wp bp r j := rfl

/-- A node's convolved row only depends on its own row of `x` and of `agg`. -/
theorem convAt_rows (x agg : FVec Ideal ⟨2, ![n, 128]⟩ .f32) (x' agg' : FVec Ideal ⟨2, ![m, 128]⟩ .f32)
    (Wc : FVec Ideal ⟨2, ![128, 128]⟩ .f32) (bc : FVec Ideal ⟨1, ![128]⟩ .f32) (r : Fin n) (r' : Fin m)
    (hx : ∀ k, x (ix2 r k) = x' (ix2 r' k)) (ha : ∀ k, agg (ix2 r k) = agg' (ix2 r' k)) (j : Fin 128) :
    convAt x agg Wc bc r j = convAt x' agg' Wc bc r' j := by
  simp only [convAt, hx, ha]

/-- A node's new row only depends on its own row of `x`, of `agg` and of `imp`. -/
theorem outAt_rows (x agg : FVec Ideal ⟨2, ![n, 128]⟩ .f32) (imp : FVec Ideal ⟨2, ![n, 1]⟩ .f32)
    (x' agg' : FVec Ideal ⟨2, ![m, 128]⟩ .f32) (imp' : FVec Ideal ⟨2, ![m, 1]⟩ .f32)
    (Wc : FVec Ideal ⟨2, ![128, 128]⟩ .f32) (bc : FVec Ideal ⟨1, ![128]⟩ .f32) (WgM : FVec Ideal ⟨2, ![128, 128]⟩ .f32)
    (WgI bg : FVec Ideal ⟨1, ![128]⟩ .f32) (r : Fin n) (r' : Fin m)
    (hx : ∀ k, x (ix2 r k) = x' (ix2 r' k)) (ha : ∀ k, agg (ix2 r k) = agg' (ix2 r' k))
    (hi : imp (ix2 r 0) = imp' (ix2 r' 0)) (j : Fin 128) :
    outAt x agg imp Wc bc WgM WgI bg r j = outAt x' agg' imp' Wc bc WgM WgI bg r' j := by
  simp only [outAt, gateAt, convAt_rows x agg x' agg' Wc bc r r' hx ha, hx, hi]

/-- So does its propagated importance. -/
theorem propAt_rows (x agg : FVec Ideal ⟨2, ![n, 128]⟩ .f32) (imp : FVec Ideal ⟨2, ![n, 1]⟩ .f32)
    (x' agg' : FVec Ideal ⟨2, ![m, 128]⟩ .f32) (imp' : FVec Ideal ⟨2, ![m, 1]⟩ .f32)
    (Wc : FVec Ideal ⟨2, ![128, 128]⟩ .f32) (bc : FVec Ideal ⟨1, ![128]⟩ .f32) (WgM : FVec Ideal ⟨2, ![128, 128]⟩ .f32)
    (WgI bg : FVec Ideal ⟨1, ![128]⟩ .f32) (Wp : FVec Ideal ⟨2, ![128, 1]⟩ .f32) (bp : FVec Ideal ⟨1, ![1]⟩ .f32)
    (r : Fin n) (r' : Fin m)
    (hx : ∀ k, x (ix2 r k) = x' (ix2 r' k)) (ha : ∀ k, agg (ix2 r k) = agg' (ix2 r' k))
    (hi : imp (ix2 r 0) = imp' (ix2 r' 0)) (j : Fin 1) :
    propAt x agg imp Wc bc WgM WgI bg Wp bp r j = propAt x' agg' imp' Wc bc WgM WgI bg Wp bp r' j := by
  simp only [propAt, outAt_rows x agg imp x' agg' imp' Wc bc WgM WgI bg r r' hx ha hi]

/-- The first 128 rows of the gate's 129-row weight: what multiplies the convolved features. -/
def wgMain (Wg : FVec Ideal ⟨2, ![129, 128]⟩ .f32) : FVec Ideal ⟨2, ![128, 128]⟩ .f32 :=
  fun i => Wg (ix2 (Fin.castSucc (i 0)) (i 1))

/-- Its last row: what multiplies the importance. -/
def wgImp (Wg : FVec Ideal ⟨2, ![129, 128]⟩ .f32) : FVec Ideal ⟨1, ![128]⟩ .f32 :=
  fun i => Wg (ix2 (Fin.last 128) (i 0))

theorem wgMain_apply (Wg : FVec Ideal ⟨2, ![129, 128]⟩ .f32) (k j : Fin 128) :
    wgMain Wg (ix2 k j) = Wg (ix2 (Fin.castSucc k) j) := rfl

theorem wgImp_apply (Wg : FVec Ideal ⟨2, ![129, 128]⟩ .f32) (j : Fin 128) :
    wgImp Wg (ix1 j) = Wg (ix2 (Fin.last 128) j) := rfl

/-- The word of 1.0 is the real number one. -/
theorem ofBits_one_f32 : Ideal.ofBits .f32 0x3F800000#32 = 1 := by
  simp [Ideal.ofBits, Ideal.ieee, -EReal.coe_mul]; norm_num

end Cert.Spec

end
-- ==== Proof.RefSide.lean ====
/-
  The reference program's three results, read index by index, are the specification's functions.

  The printed reference differs from the specification in three places only. It multiplies `x` by the word of 1.0 before
  adding the summed messages: one times a number is the number, on every extended real. It computes the gate's logit as ONE
  129-term sum, the convolved row joined with the importance against the 129 rows of `Wg`: the sum splits into its first
  128 terms (the convolved row against `Wg`'s first 128 rows) and its last term (the importance times `Wg`'s last row).
  It spells the logistic function as `1 / (1 + exp (-z))`, which is the definition of the logistic function on the
  extended reals. Everything else is the specification's term, operation for operation. The gather of the source rows and
  the scatter-add of the messages stay opaque arrays on both sides.
-/
import proofs.«178301_j3478923510357_1_alg».proof.Proof.Gen.ReferenceIdeal.Read
import proofs.«178301_j3478923510357_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx
open scoped BigOperators

/-! ## The messages -/

/-- The edge product's left operand is read at the edge's row, position `k`. -/
theorem lidx4 (e : Fin 800000) (j : Fin 128) (k : Fin 32) : lidx_main_v4 (ix2 e j) k = ix2 e k :=
  funext fun a => Fin.ext (by match a with | ⟨0, _⟩ => rfl | ⟨1, _⟩ => rfl)

/-- Its right operand at row `k`, column `j`. -/
theorem ridx4 (e : Fin 800000) (j : Fin 128) (k : Fin 32) : ridx_main_v4 (ix2 e j) k = ix2 k j :=
  funext fun a => Fin.ext (by match a with | ⟨0, _⟩ => rfl | ⟨1, _⟩ => rfl)

/-- The edge bias, broadcast over the edges, is read at the column. -/
theorem idx56 (e : Fin 800000) (j : Fin 128) : idx_main_v5 (idx_main_v6 (ix2 e j)) = ix1 j :=
  funext fun a => Fin.ext (by match a with | ⟨0, _⟩ => rfl)

/-- The edge attributes through `We`, plus `be`, at edge `e` and feature `j`. -/
theorem v7_at (x2 : (⟨S800000x32, .f32⟩ : BufTy).Contents (Elt Ideal)) (x4 : (⟨S32x128, .f32⟩ : BufTy).Contents (Elt Ideal))
    (x5 : (⟨S128, .f32⟩ : BufTy).Contents (Elt Ideal)) (e : Fin 800000) (j : Fin 128) :
    val_main_v7 (F := Ideal) x2 x4 x5 (ix2 e j) = (∑ k : Fin 32, x2 (ix2 e k) * x4 (ix2 k j)) + x5 (ix1 j) := by
  rw [val_main_v7_apply, val_main_v4_apply, val_main_v6_apply, val_main_v5_apply, idx56]
  simp only [lidx4, ridx4, Ideal.addf_def]

/-- The reference's messages are the specification's, the gathered source rows an opaque array on both sides. -/
theorem msg_eq (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x4 : (⟨S32x128, .f32⟩ : BufTy).Contents (Elt Ideal))
    (x5 : (⟨S128, .f32⟩ : BufTy).Contents (Elt Ideal)) :
    val_main_v16 (F := Ideal) x0 x1 x2 x4 x5
      = Cert.Spec.msg (n := 800000) x2 (val_main_v14 (F := Ideal) x0 x1) x4 x5 := by
  funext i
  obtain ⟨e, j, rfl⟩ : ∃ (e : Fin 800000) (j : Fin 128), i = ix2 e j := ⟨i 0, i 1, eq_ix2 i⟩
  rw [Cert.Spec.msg_apply, val_main_v16_apply, val_main_v15_apply, v7_at, val_main_call0_v0_apply,
    val_main_call0_cst_apply]
  generalize val_main_v14 (F := Ideal) x0 x1 = xs
  simp only [Cert.Spec.msgAt, Ideal.addf_def, Ideal.maximumf_def, Ideal.ofBits_def]

/-! ## The node update -/

/-- The own-row term: the word of 1.0 times `x`, plus the summed messages, is `x` plus the summed messages. -/
theorem v22_at (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x4 : (⟨S32x128, .f32⟩ : BufTy).Contents (Elt Ideal))
    (x5 : (⟨S128, .f32⟩ : BufTy).Contents (Elt Ideal)) (i : S50000x128.Idx) :
    val_main_v22 (F := Ideal) x0 x1 x2 x4 x5 i = x0 i + val_main_v19 (F := Ideal) x0 x1 x2 x4 x5 i := by
  rw [val_main_v22_apply, val_main_v21_apply, val_main_v20_apply, val_main_cst_1_apply]
  simp only [Ideal.addf_def, Ideal.mulf_def, Ideal.ofBits_def, Cert.Spec.ofBits_one_f32, one_mul]

theorem lidx23 (r : Fin 50000) (j k : Fin 128) : lidx_main_v23 (ix2 r j) k = ix2 r k :=
  funext fun a => Fin.ext (by match a with | ⟨0, _⟩ => rfl | ⟨1, _⟩ => rfl)

theorem ridx23 (r : Fin 50000) (j k : Fin 128) : ridx_main_v23 (ix2 r j) k = ix2 k j :=
  funext fun a => Fin.ext (by match a with | ⟨0, _⟩ => rfl | ⟨1, _⟩ => rfl)

theorem idx2425 (r : Fin 50000) (j : Fin 128) : idx_main_v24 (idx_main_v25 (ix2 r j)) = ix1 j :=
  funext fun a => Fin.ext (by match a with | ⟨0, _⟩ => rfl)

/-- The convolved feature `j` of node `r`. -/
theorem v26_at (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x4 : (⟨S32x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (r : Fin 50000) (j : Fin 128) :
    val_main_v26 (F := Ideal) x0 x1 x2 x4 x5 x6 x7 (ix2 r j) = Cert.Spec.convAt (n := 50000) x0 (val_main_v19 (F := Ideal) x0 x1 x2 x4 x5) x6 x7 r j := by
  rw [val_main_v26_apply, val_main_v23_apply, val_main_v25_apply, val_main_v24_apply, idx2425]
  simp only [lidx23, ridx23, v22_at, Ideal.addf_def, Cert.Spec.convAt]

/-- The joined row, at one of its first 128 positions, is the convolved row there. -/
theorem v27_left (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 : (⟨S50000x1, .f32⟩ : BufTy).Contents (Elt Ideal))
    (x4 : (⟨S32x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) (r : Fin 50000) (k : Fin 128) :
    val_main_v27 (F := Ideal) x0 x1 x2 x3 x4 x5 x6 x7 (ix2 r (Fin.castSucc k))
      = val_main_v26 (F := Ideal) x0 x1 x2 x4 x5 x6 x7 (ix2 r k) := by
  unfold val_main_v27
  generalize val_main_v26 (F := Ideal) x0 x1 x2 x4 x5 x6 x7 = y
  exact concatenate_pair_apply_left 1 y x3 Facts₀.concatenates_S50000x128_S50000x1_S50000x129_d1 (ix2 r (Fin.castSucc k)) rfl (ix2 r k)
    (fun b => by match b with | ⟨0, _⟩ => rfl | ⟨1, _⟩ => rfl)

/-- The joined row, at its last position, is the node's importance. -/
theorem v27_right (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 : (⟨S50000x1, .f32⟩ : BufTy).Contents (Elt Ideal))
    (x4 : (⟨S32x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) (r : Fin 50000) :
    val_main_v27 (F := Ideal) x0 x1 x2 x3 x4 x5 x6 x7 (ix2 r (Fin.last 128)) = x3 (ix2 r 0) := by
  unfold val_main_v27
  generalize val_main_v26 (F := Ideal) x0 x1 x2 x4 x5 x6 x7 = y
  exact concatenate_pair_apply_right 1 y x3 Facts₀.concatenates_S50000x128_S50000x1_S50000x129_d1 (ix2 r (Fin.last 128)) rfl rfl (ix2 r 0)
    (fun b => by match b with | ⟨0, _⟩ => exact fun _ => rfl | ⟨1, _⟩ => exact fun h => absurd rfl h)
    rfl

theorem lidx28 (r : Fin 50000) (j : Fin 128) (k : Fin 129) : lidx_main_v28 (ix2 r j) k = ix2 r k :=
  funext fun a => Fin.ext (by match a with | ⟨0, _⟩ => rfl | ⟨1, _⟩ => rfl)

theorem ridx28 (r : Fin 50000) (j : Fin 128) (k : Fin 129) : ridx_main_v28 (ix2 r j) k = ix2 k j :=
  funext fun a => Fin.ext (by match a with | ⟨0, _⟩ => rfl | ⟨1, _⟩ => rfl)

theorem idx2930 (r : Fin 50000) (j : Fin 128) : idx_main_v29 (idx_main_v30 (ix2 r j)) = ix1 j :=
  funext fun a => Fin.ext (by match a with | ⟨0, _⟩ => rfl)

/-- The gate's 129-term sum is the 128-term sum of the convolved row against `Wg`'s first 128 rows, plus the importance
    times `Wg`'s last row. -/
theorem v28_at (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 : (⟨S50000x1, .f32⟩ : BufTy).Contents (Elt Ideal))
    (x4 : (⟨S32x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S129x128, .f32⟩ : BufTy).Contents (Elt Ideal)) (r : Fin 50000) (j : Fin 128) :
    val_main_v28 (F := Ideal) x0 x1 x2 x3 x4 x5 x6 x7 x8 (ix2 r j)
      = (∑ k : Fin 128, Cert.Spec.convAt (n := 50000) x0 (val_main_v19 (F := Ideal) x0 x1 x2 x4 x5) x6 x7 r k * Cert.Spec.wgMain x8 (ix2 k j))
        + x3 (ix2 r 0) * Cert.Spec.wgImp x8 (ix1 j) := by
  rw [val_main_v28_apply, Fin.sum_univ_castSucc]
  simp only [lidx28, ridx28, v27_left, v27_right, v26_at, Cert.Spec.wgMain_apply, Cert.Spec.wgImp_apply]

/-- The gate's logit at node `r`, feature `j`. -/
theorem v31_at (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 : (⟨S50000x1, .f32⟩ : BufTy).Contents (Elt Ideal))
    (x4 : (⟨S32x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S129x128, .f32⟩ : BufTy).Contents (Elt Ideal)) (x9 : (⟨S128, .f32⟩ : BufTy).Contents (Elt Ideal)) (r : Fin 50000) (j : Fin 128) :
    val_main_v31 (F := Ideal) x0 x1 x2 x3 x4 x5 x6 x7 x8 x9 (ix2 r j)
      = ((∑ k : Fin 128, Cert.Spec.convAt (n := 50000) x0 (val_main_v19 (F := Ideal) x0 x1 x2 x4 x5) x6 x7 r k * Cert.Spec.wgMain x8 (ix2 k j))
        + x3 (ix2 r 0) * Cert.Spec.wgImp x8 (ix1 j)) + x9 (ix1 j) := by
  rw [val_main_v31_apply, v28_at, val_main_v30_apply, val_main_v29_apply, idx2930]
  simp only [Ideal.addf_def]

/-- The gate: one over one plus the exponential of the negated logit is the logistic function of the logit. -/
theorem v37_at (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 : (⟨S50000x1, .f32⟩ : BufTy).Contents (Elt Ideal))
    (x4 : (⟨S32x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S129x128, .f32⟩ : BufTy).Contents (Elt Ideal)) (x9 : (⟨S128, .f32⟩ : BufTy).Contents (Elt Ideal)) (r : Fin 50000) (j : Fin 128) :
    val_main_v37 (F := Ideal) x0 x1 x2 x3 x4 x5 x6 x7 x8 x9 (ix2 r j)
      = Cert.Spec.gateAt (n := 50000) x0 (val_main_v19 (F := Ideal) x0 x1 x2 x4 x5) x3 x6 x7 (Cert.Spec.wgMain x8) (Cert.Spec.wgImp x8) x9 r j := by
  rw [val_main_v37_apply, val_main_v36_apply, val_main_cst_3_apply, val_main_v35_apply, val_main_v34_apply,
    val_main_cst_2_apply, val_main_v33_apply, val_main_v32_apply, v31_at]
  simp only [Cert.Spec.gateAt, Ideal.logistic, Ideal.hostDivf_def, Ideal.hostUnary_exp_def, Ideal.hostNegf_def,
    Ideal.negf_def, Ideal.addf_def, Ideal.ofBits_def, Cert.Spec.ofBits_one_f32]

/-- The new feature `j` of node `r`. -/
theorem v42_at (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 : (⟨S50000x1, .f32⟩ : BufTy).Contents (Elt Ideal))
    (x4 : (⟨S32x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S129x128, .f32⟩ : BufTy).Contents (Elt Ideal)) (x9 : (⟨S128, .f32⟩ : BufTy).Contents (Elt Ideal)) (r : Fin 50000) (j : Fin 128) :
    val_main_v42 (F := Ideal) x0 x1 x2 x3 x4 x5 x6 x7 x8 x9 (ix2 r j)
      = Cert.Spec.outAt (n := 50000) x0 (val_main_v19 (F := Ideal) x0 x1 x2 x4 x5) x3 x6 x7 (Cert.Spec.wgMain x8) (Cert.Spec.wgImp x8) x9 r j := by
  rw [val_main_v42_apply, val_main_v38_apply, val_main_v41_apply, val_main_v40_apply, val_main_v39_apply,
    val_main_cst_4_apply, v37_at, v26_at]
  simp only [Cert.Spec.outAt, Ideal.addf_def, Ideal.mulf_def, Ideal.subf_def, Ideal.ofBits_def]

/-- The reference's new features are the specification's, the summed messages an opaque array on both sides. -/
theorem out_eq (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 : (⟨S50000x1, .f32⟩ : BufTy).Contents (Elt Ideal))
    (x4 : (⟨S32x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S129x128, .f32⟩ : BufTy).Contents (Elt Ideal)) (x9 : (⟨S128, .f32⟩ : BufTy).Contents (Elt Ideal)) :
    val_main_v42 (F := Ideal) x0 x1 x2 x3 x4 x5 x6 x7 x8 x9
      = Cert.Spec.out (n := 50000) x0 (val_main_v19 (F := Ideal) x0 x1 x2 x4 x5) x3 x6 x7 (Cert.Spec.wgMain x8) (Cert.Spec.wgImp x8) x9 := by
  funext i
  obtain ⟨r, j, rfl⟩ : ∃ (r : Fin 50000) (j : Fin 128), i = ix2 r j := ⟨i 0, i 1, eq_ix2 i⟩
  rw [Cert.Spec.out_apply, v42_at]

theorem lidx43 (r : Fin 50000) (j : Fin 1) (k : Fin 128) : lidx_main_v43 (ix2 r j) k = ix2 r k :=
  funext fun a => Fin.ext (by match a with | ⟨0, _⟩ => rfl | ⟨1, _⟩ => rfl)

theorem ridx43 (r : Fin 50000) (j : Fin 1) (k : Fin 128) : ridx_main_v43 (ix2 r j) k = ix2 k j :=
  funext fun a => Fin.ext (by match a with | ⟨0, _⟩ => rfl | ⟨1, _⟩ => rfl)

/-- The one-element bias, broadcast over the nodes, is read at its only position. -/
theorem idx4445 (r : Fin 50000) (j : Fin 1) : idx_main_v44 (idx_main_v45 (ix2 r j)) = ix1 j :=
  funext fun a => Fin.ext (by match a with | ⟨0, _⟩ => have := j.isLt; show 0 = j.val; omega)

/-- The propagated importance of node `r`. -/
theorem v46_at (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 : (⟨S50000x1, .f32⟩ : BufTy).Contents (Elt Ideal))
    (x4 : (⟨S32x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S129x128, .f32⟩ : BufTy).Contents (Elt Ideal)) (x9 : (⟨S128, .f32⟩ : BufTy).Contents (Elt Ideal))
    (x10 : (⟨S128x1, .f32⟩ : BufTy).Contents (Elt Ideal)) (x11 : (⟨S1, .f32⟩ : BufTy).Contents (Elt Ideal)) (r : Fin 50000) (j : Fin 1) :
    val_main_v46 (F := Ideal) x0 x1 x2 x3 x4 x5 x6 x7 x8 x9 x10 x11 (ix2 r j)
      = Cert.Spec.propAt (n := 50000) x0 (val_main_v19 (F := Ideal) x0 x1 x2 x4 x5) x3 x6 x7 (Cert.Spec.wgMain x8) (Cert.Spec.wgImp x8) x9 x10 x11 r j := by
  rw [val_main_v46_apply, val_main_v43_apply, val_main_v45_apply, val_main_v44_apply, idx4445]
  simp only [lidx43, ridx43, v42_at, Ideal.addf_def, Cert.Spec.propAt]

/-- The reference's propagated importances are the specification's. -/
theorem prop_eq (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 : (⟨S50000x1, .f32⟩ : BufTy).Contents (Elt Ideal))
    (x4 : (⟨S32x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S129x128, .f32⟩ : BufTy).Contents (Elt Ideal)) (x9 : (⟨S128, .f32⟩ : BufTy).Contents (Elt Ideal))
    (x10 : (⟨S128x1, .f32⟩ : BufTy).Contents (Elt Ideal)) (x11 : (⟨S1, .f32⟩ : BufTy).Contents (Elt Ideal)) :
    val_main_v46 (F := Ideal) x0 x1 x2 x3 x4 x5 x6 x7 x8 x9 x10 x11
      = Cert.Spec.prop (n := 50000) x0 (val_main_v19 (F := Ideal) x0 x1 x2 x4 x5) x3 x6 x7 (Cert.Spec.wgMain x8) (Cert.Spec.wgImp x8) x9 x10 x11 := by
  funext i
  obtain ⟨r, j, rfl⟩ : ∃ (r : Fin 50000) (j : Fin 1), i = ix2 r j := ⟨i 0, i 1, eq_ix2 i⟩
  rw [Cert.Spec.prop_apply, v46_at]

end Cert.ReferenceIdeal.RefValue

end
-- ==== Proof.RunK.lean ====
/-
  The kernel program's run, with its two result buffers named.

  Every weakly fair execution of the program on the TensorCores terminates without fault. At the end each of the two
  result buffers holds what the fold of buffer contents through the program's four segments (a stretch of host
  operations, the edge region, a second stretch of host operations, the node region) assigns to it, and the twelve
  argument arrays are as launched.
-/
import proofs.«178301_j3478923510357_1_alg».proof.Proof.Gen.KernelIdeal.Frame

set_option maxRecDepth 16384

noncomputable section

namespace Cert.KernelIdeal.RunK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of the program terminates, nothing faulting, and in
    every final state the two result buffers hold the last boundary's contents of the fold through the four segments,
    and every argument array is as launched. The last thread state pins every unscoped buffer to the fold's last
    boundary; the two results are read off it directly, and each argument is walked back through the fold to the
    launch memory. -/
theorem run_named : θ_run defs (onTc (τ := τ) (main (F := F))) ⟨m, fun _ => 0, ρ⟩ (fun r => ∀ c : Dev nD,
      r.2.mem ((c.tc : Thread nD τ).loc main_v18_0) = W4 m ρ c (Proc.devRef .tc main_v18_0)
      ∧ r.2.mem ((c.tc : Thread nD τ).loc main_v18_1) = W4 m ρ c (Proc.devRef .tc main_v18_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v18_0 (by decide)),
       h c _ (mem_uc main_v18_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.RunK

end
-- ==== Proof.Contract.lean ====
/-
  The kernel's three matrix products, each into a zero accumulator, read at one row `p` and one column `q`:
  the sum over the contracted coordinate `k` of the left operand at `(p, k)` times the right operand at `(k, q)`.
  The contraction's own index type has one axis; the sum is re-indexed along the bijection with `Fin K`.
-/
import proofs.«178301_j3478923510357_1_alg».proof.Proof.Gen.KernelIdeal
import Idealize.ShloMosaic.Lib.ValueIdx
import Idealize.ShloMosaic.PureOps.Ideal.Laws

noncomputable section

namespace Cert.KernelIdeal.Contract

open Cert.KernelIdeal Idealize.ShloMosaic Idealize.ShloMosaic.ValueIdx
open scoped BigOperators

theorem edge_dot_lhs0 (i : S4000x128.Idx) (c : dot_S4000x32_S32x128_S4000x128_1_0_0_1_n_n.contr.Idx) : (dot_S4000x32_S32x128_S4000x128_1_0_0_1_n_n.lhsIdx i c 0).val = (i 0).val := by
  unfold DotDims.lhsIdx
  rw [dif_neg (show ¬(0 : Fin S4000x32.rank) ∈ dot_S4000x32_S32x128_S4000x128_1_0_0_1_n_n.lhsBatch by decide),
    dif_pos (show (0 : Fin S4000x32.rank) ∈ dot_S4000x32_S32x128_S4000x128_1_0_0_1_n_n.lhsNonContracting by decide)]
  rfl
theorem edge_dot_rhs1 (i : S4000x128.Idx) (c : dot_S4000x32_S32x128_S4000x128_1_0_0_1_n_n.contr.Idx) : (dot_S4000x32_S32x128_S4000x128_1_0_0_1_n_n.rhsIdx i c 1).val = (i 1).val := by
  unfold DotDims.rhsIdx
  rw [dif_neg (show ¬(1 : Fin S32x128.rank) ∈ dot_S4000x32_S32x128_S4000x128_1_0_0_1_n_n.rhsBatch by decide),
    dif_pos (show (1 : Fin S32x128.rank) ∈ dot_S4000x32_S32x128_S4000x128_1_0_0_1_n_n.rhsNonContracting by decide)]
  rfl
/-- A block of 4000 edges' attributes times the 32 × 128 edge weight. -/
theorem edge_dot (l : FVec Ideal S4000x32 .bf16) (r : FVec Ideal S32x128 .bf16) (p : Fin 4000) (q : Fin 128) :
    matmul (F := Ideal) dot_S4000x32_S32x128_S4000x128_1_0_0_1_n_n none l r (constant S4000x128 .f32 0x00000000#32) (ix2 p q)
      = ∑ k : Fin 32, l (ix2 p k) * r (ix2 k q) := by
  refine (Ideal.matmul_constant_zero_apply dot_S4000x32_S32x128_S4000x128_1_0_0_1_n_n none l r (ix2 p q)).trans ?_
  rw [← Equiv.sum_comp (contrEquiv1 dot_S4000x32_S32x128_S4000x128_1_0_0_1_n_n 32 rfl rfl).symm]
  refine Finset.sum_congr rfl fun k _ => ?_
  have hk := contrEquiv1_symm_val dot_S4000x32_S32x128_S4000x128_1_0_0_1_n_n 32 rfl rfl k
  have el : dot_S4000x32_S32x128_S4000x128_1_0_0_1_n_n.lhsIdx (ix2 p q) ((contrEquiv1 dot_S4000x32_S32x128_S4000x128_1_0_0_1_n_n 32 rfl rfl).symm k) = ix2 p k :=
    funext fun a => Fin.ext (by
      match a with
      | ⟨0, _⟩ => exact edge_dot_lhs0 _ _
      | ⟨1, _⟩ => exact (dot_S4000x32_S32x128_S4000x128_1_0_0_1_n_n.lhsIdx_val_of_single rfl _ _).trans hk)
  have er : dot_S4000x32_S32x128_S4000x128_1_0_0_1_n_n.rhsIdx (ix2 p q) ((contrEquiv1 dot_S4000x32_S32x128_S4000x128_1_0_0_1_n_n 32 rfl rfl).symm k) = ix2 k q :=
    funext fun a => Fin.ext (by
      match a with
      | ⟨0, _⟩ => exact (dot_S4000x32_S32x128_S4000x128_1_0_0_1_n_n.rhsIdx_val_of_single rfl _ _).trans hk
      | ⟨1, _⟩ => exact edge_dot_rhs1 _ _)
  rw [el, er]

theorem node_dot_lhs0 (i : S2000x128.Idx) (c : dot_S2000x128_S128x128_S2000x128_1_0_0_1_n_n.contr.Idx) : (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem node_dot_rhs1 (i : S2000x128.Idx) (c : dot_S2000x128_S128x128_S2000x128_1_0_0_1_n_n.contr.Idx) : (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl
/-- A block of 2000 nodes' 128 features times a 128 × 128 weight. -/
theorem node_dot (l : FVec Ideal S2000x128 .bf16) (r : FVec Ideal S128x128 .bf16) (p : Fin 2000) (q : Fin 128) :
    matmul (F := Ideal) dot_S2000x128_S128x128_S2000x128_1_0_0_1_n_n none l r (constant S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact node_dot_lhs0 _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (dot_S2000x128_S128x128_S2000x128_1_0_0_1_n_n.rhsIdx_val_of_single rfl _ _).trans hk
      | ⟨1, _⟩ => exact node_dot_rhs1 _ _)
  rw [el, er]

theorem prop_dot_lhs0 (i : S2000x1.Idx) (c : dot_S2000x128_S128x1_S2000x1_1_0_0_1_n_n.contr.Idx) : (dot_S2000x128_S128x1_S2000x1_1_0_0_1_n_n.lhsIdx i c 0).val = (i 0).val := by
  unfold DotDims.lhsIdx
  rw [dif_neg (show ¬(0 : Fin S2000x128.rank) ∈ dot_S2000x128_S128x1_S2000x1_1_0_0_1_n_n.lhsBatch by decide),
    dif_pos (show (0 : Fin S2000x128.rank) ∈ dot_S2000x128_S128x1_S2000x1_1_0_0_1_n_n.lhsNonContracting by decide)]
  rfl
theorem prop_dot_rhs1 (i : S2000x1.Idx) (c : dot_S2000x128_S128x1_S2000x1_1_0_0_1_n_n.contr.Idx) : (dot_S2000x128_S128x1_S2000x1_1_0_0_1_n_n.rhsIdx i c 1).val = (i 1).val := by
  unfold DotDims.rhsIdx
  rw [dif_neg (show ¬(1 : Fin S128x1.rank) ∈ dot_S2000x128_S128x1_S2000x1_1_0_0_1_n_n.rhsBatch by decide),
    dif_pos (show (1 : Fin S128x1.rank) ∈ dot_S2000x128_S128x1_S2000x1_1_0_0_1_n_n.rhsNonContracting by decide)]
  rfl
/-- A block of 2000 nodes' 128 features times the 128 × 1 propagation weight. -/
theorem prop_dot (l : FVec Ideal S2000x128 .bf16) (r : FVec Ideal S128x1 .bf16) (p : Fin 2000) (q : Fin 1) :
    matmul (F := Ideal) dot_S2000x128_S128x1_S2000x1_1_0_0_1_n_n none l r (constant S2000x1 .f32 0x00000000#32) (ix2 p q)
      = ∑ k : Fin 128, l (ix2 p k) * r (ix2 k q) := by
  refine (Ideal.matmul_constant_zero_apply dot_S2000x128_S128x1_S2000x1_1_0_0_1_n_n none l r (ix2 p q)).trans ?_
  rw [← Equiv.sum_comp (contrEquiv1 dot_S2000x128_S128x1_S2000x1_1_0_0_1_n_n 128 rfl rfl).symm]
  refine Finset.sum_congr rfl fun k _ => ?_
  have hk := contrEquiv1_symm_val dot_S2000x128_S128x1_S2000x1_1_0_0_1_n_n 128 rfl rfl k
  have el : dot_S2000x128_S128x1_S2000x1_1_0_0_1_n_n.lhsIdx (ix2 p q) ((contrEquiv1 dot_S2000x128_S128x1_S2000x1_1_0_0_1_n_n 128 rfl rfl).symm k) = ix2 p k :=
    funext fun a => Fin.ext (by
      match a with
      | ⟨0, _⟩ => exact prop_dot_lhs0 _ _
      | ⟨1, _⟩ => exact (dot_S2000x128_S128x1_S2000x1_1_0_0_1_n_n.lhsIdx_val_of_single rfl _ _).trans hk)
  have er : dot_S2000x128_S128x1_S2000x1_1_0_0_1_n_n.rhsIdx (ix2 p q) ((contrEquiv1 dot_S2000x128_S128x1_S2000x1_1_0_0_1_n_n 128 rfl rfl).symm k) = ix2 k q :=
    funext fun a => Fin.ext (by
      match a with
      | ⟨0, _⟩ => exact (dot_S2000x128_S128x1_S2000x1_1_0_0_1_n_n.rhsIdx_val_of_single rfl _ _).trans hk
      | ⟨1, _⟩ => exact prop_dot_rhs1 _ _)
  rw [el, er]

end Cert.KernelIdeal.Contract

end
-- ==== Proof.Payload.lean ====
/-
  The values the kernel bodies store, read at one row `p` and one column `q` of the block, at the extended reals.
  The edge body stores the message of the block's edge `p`; the node body stores node `p`'s new features and its
  propagated importance. Each is the specification's per-row function at the block's own row count: a change of float
  format is the identity, a matrix product into a zero accumulator is the plain sum, a bias is a row broadcast down the
  block, the importance a column broadcast across it.
-/
import proofs.«178301_j3478923510357_1_alg».proof.Proof.Gen.KernelIdeal.Skeleton
import proofs.«178301_j3478923510357_1_alg».proof.Proof.Contract
import proofs.«178301_j3478923510357_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-- A 128-vector made a row and broadcast down 4000 rows reads, at `(p, q)`, the vector at `q`. -/
theorem row4000 (v : FVec Ideal S128 .f32) (p : Fin 4000) (q : Fin 128) :
    broadcastTo S4000x128 (shapeCast S1x128 v shapeCasts_S128_S1x128) broadcasts_S1x128_S4000x128 (ix2 p q) = v (ix1 q) := by
  rw [broadcastTo_1b_ab_apply, shapeCast_a_1a_apply]

/-- The same down 2000 rows. -/
theorem row2000 (v : FVec Ideal S128 .f32) (p : Fin 2000) (q : Fin 128) :
    broadcastTo S2000x128 (shapeCast S1x128 v shapeCasts_S128_S1x128) broadcasts_S1x128_S2000x128 (ix2 p q) = v (ix1 q) := by
  rw [broadcastTo_1b_ab_apply, shapeCast_a_1a_apply]

/-- The edge body's stored value at `(p, q)` is the message of the block's edge `p` at feature `q`. -/
theorem edge_pay (v0 : Vec Ideal S4000x32 .f32) (v2 : Vec Ideal S32x128 .f32) (v5 : Vec Ideal S128 .f32)
    (v9 : Vec Ideal S4000x128 .f32) (p : Fin 4000) (q : Fin 128) :
    k0_pay1 (F := Ideal) v0 v2 v5 v9 (ix2 p q) = Cert.Spec.msgAt (n := 4000) v0 v9 v2 v5 p q := by
  unfold k0_pay1 Cert.Spec.msgAt
  simp only [maximumf_apply, addf_apply, broadcast_apply, shapeCast_self, row4000, Contract.edge_dot, truncf_apply]
  rfl

/-- An importance column broadcast across 128 features reads, at `(p, q)`, the column at `p`. -/
theorem col2000 (v : FVec Ideal S2000x1 .f32) (p : Fin 2000) (q : Fin 128) :
    broadcastTo S2000x128 v broadcasts_S2000x1_S2000x128 (ix2 p q) = v (ix2 p (0 : Fin 1)) := by
  refine broadcastTo_apply v broadcasts_S2000x1_S2000x128 (ix2 p q) (ix2 p (0 : Fin 1)) fun ax => ?_
  match ax with
  | ⟨0, _⟩ => rfl
  | ⟨1, _⟩ => rfl

/-- The convolved features inside the node body, at `(p, q)`. -/
theorem node_conv (v0 v1 : Vec Ideal S2000x128 .f32) (v4 : Vec Ideal S128x128 .f32) (v8 : Vec Ideal S128 .f32)
    (p : Fin 2000) (q : Fin 128) :
    addf (matmul (F := Ideal) dot_S2000x128_S128x128_S2000x128_1_0_0_1_n_n none
        (truncf .bf16 (addf v0 (shapeCast S2000x128 v1 shapeCasts_S2000x128_S2000x128)) bitsLt_bf16_f32)
        (truncf .bf16 v4 bitsLt_bf16_f32) (constant S2000x128 .f32 0x00000000#32))
      (broadcastTo S2000x128 (shapeCast S1x128 v8 shapeCasts_S128_S1x128) broadcasts_S1x128_S2000x128) (ix2 p q)
      = Cert.Spec.convAt (n := 2000) v0 v1 v4 v8 p q := by
  unfold Cert.Spec.convAt
  simp only [addf_apply, shapeCast_self, Contract.node_dot, truncf_apply, row2000]

/-- The node body's first stored value at `(p, q)` is node `p`'s new feature `q`. -/
theorem node_pay (v0 v1 : Vec Ideal S2000x128 .f32) (v4 : Vec Ideal S128x128 .f32) (v8 : Vec Ideal S128 .f32)
    (v12 : Vec Ideal S2000x1 .f32) (v13 : Vec Ideal S128x128 .f32) (v18 v25 : Vec Ideal S128 .f32) (p : Fin 2000) (q : Fin 128) :
    k1_pay2 (F := Ideal) v0 v1 v4 v8 v12 v13 v18 v25 (ix2 p q)
      = Cert.Spec.outAt (n := 2000) v0 v1 v12 v4 v8 v13 v18 v25 p q := by
  unfold k1_pay2 Cert.Spec.outAt Cert.Spec.gateAt
  simp only [logistic, addf_apply, mulf_apply, subf_apply, broadcast_apply, shapeCast_self, Contract.node_dot, truncf_apply,
    row2000, col2000, Cert.Spec.convAt, Ideal.logistic_def, Ideal.ofBits_def]

/-- A one-element bias made a 1 × 1 array and broadcast down 2000 rows reads the element. -/
theorem row2000x1 (v : FVec Ideal S1 .f32) (p : Fin 2000) (z : Fin 1) :
    broadcastTo S2000x1 (shapeCast S1x1 v shapeCasts_S1_S1x1) broadcasts_S1x1_S2000x1 (ix2 p z) = v (ix1 z) := by
  rw [broadcastTo_1b_ab_apply, shapeCast_a_1a_apply]

/-- The node body's second stored value at `(p, z)` is node `p`'s propagated importance. -/
theorem prop_pay (v0 v1 : Vec Ideal S2000x128 .f32) (v4 : Vec Ideal S128x128 .f32) (v8 : Vec Ideal S128 .f32)
    (v12 : Vec Ideal S2000x1 .f32) (v13 : Vec Ideal S128x128 .f32) (v18 v25 : Vec Ideal S128 .f32)
    (v35 : Vec Ideal S128x1 .f32) (v39 : Vec Ideal S1 .f32) (p : Fin 2000) (z : Fin 1) :
    k1_pay1 (F := Ideal) (k1_pay3 (F := Ideal) v0 v1 v4 v8 v12 v13 v18 v25 v35) v39 (ix2 p z)
      = Cert.Spec.propAt (n := 2000) v0 v1 v12 v4 v8 v13 v18 v25 v35 v39 p z := by
  unfold k1_pay1 k1_pay3 Cert.Spec.propAt
  simp only [addf_apply, Contract.prop_dot, truncf_apply, node_pay, row2000x1]

end Cert.KernelIdeal.Payload

end
-- ==== Proof.EdgeBlocks.lean ====
/-
  The edge region, from blocks to the whole array.
  The grid has 200 points; point `t` reads rows `4000 t … 4000 t + 3999` of the edge attributes and of the gathered source
  rows, the whole edge weight and bias, and writes back rows `4000 t … 4000 t + 3999` of the messages. A message only depends
  on its own edge's row, so what point `t` writes back is block `t` of the whole message array; the 200 blocks tile the
  800000 rows, so after the region the array holds every message.
-/
import proofs.«178301_j3478923510357_1_alg».proof.Proof.Gen.KernelIdeal.Frame
import proofs.«178301_j3478923510357_1_alg».proof.Proof.Payload
import Idealize.ShloMosaic.Lib.Pipeline.Value

set_option maxRecDepth 16384

noncomputable section

namespace Cert.KernelIdeal.EdgeBlocks

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What the body leaves in the output block is its one stored value of the four loaded blocks. -/
theorem out_eq (x0 : Vec Ideal S4000x32 .f32) (x1 : Vec Ideal S4000x128 .f32) (x2 : Vec Ideal S32x128 .f32) (x3 : Vec Ideal S128 .f32) :
    out0_4 (F := Ideal) x0 x1 x2 x3 = k0_pay1 x0 x2 x3 x1 := by
  unfold out0_4
  rw [View.canon_unit_zero hz2]
  simp only [View.ld_unit_zero (S := S4000x32) hz2, View.ld_unit_zero (S := S32x128) hz2, View.ld_unit_zero (S := S128) hz1,
    View.ld_unit_zero (S := S4000x128) hz2]

/-- The printed index maps over the grid: the three row-blocked windows sit at block `t`, the weights at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Row `p` of block `t` is row `4000 t + p` of the array. -/
def row (t : Fin cfg0.N) (p : Fin 4000) : Fin 800000 :=
  ⟨t.val * 4000 + p.val, by have h : t.val < 200 := Nat.lt_of_lt_of_eq t.isLt N_0
                            have := p.isLt; omega⟩

theorem iblk_ea (c : Dev nD) (t : Fin cfg0.N) (p : Fin 4000) (k : Fin 32) :
    (iblk0 V c 0 t : Vec Ideal S4000x32 .f32) (ix2 p k) = (V c main_arg2 : S800000x32.Idx → Ideal .f32) (ix2 (row t p) k) := by
  obtain ⟨e0, e1, -⟩ := idx_facts t
  unfold iblk0
  rw [View.read_apply]
  show V c main_arg2 _ = V c main_arg2 _
  congr 1
  funext a
  apply Fin.ext
  match a with
  | ⟨0, _⟩ => show win0_0.index t 0 * 4000 + 1 * p.val = t.val * 4000 + p.val; rw [e0]; omega
  | ⟨1, _⟩ => show win0_0.index t 1 * 32 + 1 * k.val = k.val; rw [e1]; omega

theorem iblk_xs (c : Dev nD) (t : Fin cfg0.N) (p : Fin 4000) (q : Fin 128) :
    (iblk0 V c 1 t : Vec Ideal S4000x128 .f32) (ix2 p q) = (V c main_v10 : S800000x128.Idx → Ideal .f32) (ix2 (row t p) q) := by
  obtain ⟨-, -, e2, e3, -⟩ := idx_facts t
  unfold iblk0
  rw [View.read_apply]
  show V c main_v10 _ = V c main_v10 _
  congr 1
  funext a
  apply Fin.ext
  match a with
  | ⟨0, _⟩ => show win0_1.index t 0 * 4000 + 1 * p.val = t.val * 4000 + p.val; rw [e2]; omega
  | ⟨1, _⟩ => show win0_1.index t 1 * 128 + 1 * q.val = q.val; rw [e3]; omega

/-- Every point reads the whole edge weight … -/
theorem iblk_we (c : Dev nD) (t : Fin cfg0.N) :
    (iblk0 V c 2 t : Vec Ideal S32x128 .f32) = (V c main_arg4 : S32x128.Idx → Ideal .f32) := by
  obtain ⟨-, -, -, -, e4, e5, -⟩ := idx_facts t
  unfold iblk0
  funext y
  rw [View.read_apply]
  show V c main_arg4 _ = V c main_arg4 y
  congr 1
  funext a
  apply Fin.ext
  match a with
  | ⟨0, _⟩ => show win0_2.index t 0 * 32 + 1 * (y 0).val = (y 0).val; rw [e4]; omega
  | ⟨1, _⟩ => show win0_2.index t 1 * 128 + 1 * (y 1).val = (y 1).val; rw [e5]; omega

/-- … and the whole bias. -/
theorem iblk_be (c : Dev nD) (t : Fin cfg0.N) :
    (iblk0 V c 3 t : Vec Ideal S128 .f32) = (V c main_arg5 : S128.Idx → Ideal .f32) := by
  obtain ⟨-, -, -, -, -, -, e6, -⟩ := idx_facts t
  unfold iblk0
  funext y
  rw [View.read_apply]
  show V c main_arg5 _ = V c main_arg5 y
  congr 1
  funext a
  apply Fin.ext
  match a with
  | ⟨0, _⟩ => show win0_3.index t 0 * 128 + 1 * (y 0).val = (y 0).val; rw [e6]; omega

/-- All messages, of the arrays as the region finds them. -/
abbrev msgs (c : Dev nD) : S800000x128.Idx → Ideal .f32 :=
  Cert.Spec.msg (n := 800000) (V c main_arg2) (V c main_v10) (V c main_arg4) (V c main_arg5)

/-- What point `t` writes back is block `t` of the messages. -/
theorem flushed_eq (c : Dev nD) (t : Fin cfg0.N) :
    (dat0 V c).flushed 4 t = ((cfg0.win 4).blk t).view.read (Elt Ideal) (msgs V c) := by
  show (cfg0.win 4).cut (grid0.coords t) ((dat0 V c).after 4 t) = _
  rw [after0_4, out_eq]
  obtain ⟨-, -, -, -, -, -, -, e7, e8⟩ := idx_facts t
  funext j
  obtain ⟨p, q, rfl⟩ : ∃ (p : Fin 4000) (q : Fin 128), j = ix2 p q := ⟨j 0, j 1, eq_ix2 j⟩
  have he : ((cfg0.win 4).blk t).view.emb (ix2 p q) = ix2 (row t p) q := by
    funext a
    apply Fin.ext
    match a with
    | ⟨0, _⟩ => show win0_4.index t 0 * 4000 + 1 * p.val = t.val * 4000 + p.val; rw [e7]; omega
    | ⟨1, _⟩ => show win0_4.index t 1 * 128 + 1 * q.val = q.val; rw [e8]; omega
  show k0_pay1 (F := Ideal) (iblk0 V c 0 t) (iblk0 V c 2 t) (iblk0 V c 3 t) (iblk0 V c 1 t) (ix2 p q)
    = msgs V c (((cfg0.win 4).blk t).view.emb (ix2 p q))
  rw [he]
  refine (Payload.edge_pay _ _ _ _ p q).trans ?_
  rw [iblk_we, iblk_be]
  exact Cert.Spec.msgAt_rows _ _ _ _ _ _ p (row t p) (fun k => iblk_ea V c t p k) (fun j => iblk_xs V c t p j) q

/-- An index of the message array is in point `t`'s block iff each coordinate is in the block's range. -/
theorem mem_blk (t : Fin cfg0.N) (i : S800000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v11).slice (win0_4.rect t)).set ↔ _
  rw [View.set_slice_whole, Rect.mem_set_unit]
  exact Iff.rfl

/-- Row `r` is in the block of point `r / 4000`: the 200 blocks tile the array. -/
theorem cover (i : S800000x128.Idx) : ∃ t : Fin cfg0.N, (cfg0.win 4).flush t = true ∧ i ∈ ((cfg0.win 4).blk t).view.set := by
  have hi0 : (i 0).val < 800000 := (i 0).isLt
  have hi1 : (i 1).val < 128 := (i 1).isLt
  let t : Fin cfg0.N := ⟨(i 0).val / 4000, Nat.lt_of_lt_of_eq (show (i 0).val / 4000 < 200 by omega) N_0.symm⟩
  obtain ⟨-, -, -, -, -, -, -, e7, e8⟩ := idx_facts t
  have ht : t.val = (i 0).val / 4000 := rfl
  refine ⟨t, flush0_4 t, ?_⟩
  rw [mem_blk]
  intro a
  match a with
  | ⟨0, _⟩ => show win0_4.index t 0 * 4000 ≤ (i 0).val ∧ (i 0).val < win0_4.index t 0 * 4000 + 4000; rw [e7, ht]; omega
  | ⟨1, _⟩ => show win0_4.index t 1 * 128 ≤ (i 1).val ∧ (i 1).val < win0_4.index t 1 * 128 + 128; rw [e8]; omega

/-- After the region the message array holds every message. -/
theorem final (c : Dev nD) : (dat0 V c).arrAt 4 cfg0.N = msgs V c :=
  (dat0 V c).arrAt_eq_of_cover 4 (msgs V c) (fun t _ => flushed_eq V c t) cover

end Cert.KernelIdeal.EdgeBlocks

end
-- ==== Proof.NodeBlocks.lean ====
/-
  The node region, from blocks to the whole arrays.
  The grid has 25 points; point `t` reads rows `2000 t … 2000 t + 1999` of the node features, of the summed messages and of
  the importances, the whole of the seven weight and bias arrays, and writes back rows `2000 t … 2000 t + 1999` of the new
  features and of the propagated importances. A node's new row and its propagated importance only depend on its own row of
  the three node-indexed arrays, so what point `t` writes back is block `t` of the whole result; the 25 blocks tile the
  50000 rows, so after the region the two arrays hold the results of every node.
-/
import proofs.«178301_j3478923510357_1_alg».proof.Proof.Gen.KernelIdeal.Frame
import proofs.«178301_j3478923510357_1_alg».proof.Proof.Payload
import Idealize.ShloMosaic.Lib.Pipeline.Value

set_option maxRecDepth 16384

noncomputable section

namespace Cert.KernelIdeal.NodeBlocks

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What the body leaves in the first output block is its stored new features, of the loaded blocks. -/
theorem out10_eq (x0 x1 : Vec Ideal S2000x128 .f32) (x2 : Vec Ideal S2000x1 .f32) (x3 : Vec Ideal S128x128 .f32) (x4 : Vec Ideal S128 .f32)
    (x5 : Vec Ideal S128x128 .f32) (x6 x7 : Vec Ideal S128 .f32) (x8 : Vec Ideal S128x1 .f32) (x9 : Vec Ideal S1 .f32) :
    out1_10 (F := Ideal) x0 x1 x2 x3 x4 x5 x6 x7 x8 x9 = k1_pay2 x0 x1 x3 x4 x2 x5 x6 x7 := by
  unfold out1_10
  rw [View.canon_unit_zero hz2]
  simp only [View.ld_unit_zero (S := S2000x128) hz2, View.ld_unit_zero (S := S128x128) hz2, View.ld_unit_zero (S := S128) hz1,
    View.ld_unit_zero (S := S2000x1) hz2]

/-- What it leaves in the second is its stored propagated importances. -/
theorem out11_eq (x0 x1 : Vec Ideal S2000x128 .f32) (x2 : Vec Ideal S2000x1 .f32) (x3 : Vec Ideal S128x128 .f32) (x4 : Vec Ideal S128 .f32)
    (x5 : Vec Ideal S128x128 .f32) (x6 x7 : Vec Ideal S128 .f32) (x8 : Vec Ideal S128x1 .f32) (x9 : Vec Ideal S1 .f32) :
    out1_11 (F := Ideal) x0 x1 x2 x3 x4 x5 x6 x7 x8 x9 = k1_pay1 (k1_pay3 x0 x1 x3 x4 x2 x5 x6 x7 x8) x9 := by
  unfold out1_11
  rw [View.canon_unit_zero hz2]
  simp only [View.ld_unit_zero (S := S2000x128) hz2, View.ld_unit_zero (S := S128x128) hz2, View.ld_unit_zero (S := S128) hz1,
    View.ld_unit_zero (S := S2000x1) hz2, View.ld_unit_zero (S := S128x1) hz2, View.ld_unit_zero (S := S1) hz1]

/-- Row `p` of block `t` is row `2000 t + p` of the array. -/
def row (t : Fin cfg1.N) (p : Fin 2000) : Fin 50000 :=
  ⟨t.val * 2000 + p.val, by have h : t.val < 25 := Nat.lt_of_lt_of_eq t.isLt N_1
                            have := p.isLt; omega⟩

/-! ## The three row-blocked input windows -/

/-- The node features' window sits at block `t`. -/
theorem idx_x : ∀ t : Fin cfg1.N, win1_0.index t (0 : Fin 2) = t.val ∧ win1_0.index t (1 : Fin 2) = 0 :=
  (by decide +kernel : ∀ t : Fin grid1.N, _)
theorem iblk_x (c : Dev nD) (t : Fin cfg1.N) (p : Fin 2000) (k : Fin 128) :
    (iblk1 V c 0 t : Vec Ideal S2000x128 .f32) (ix2 p k) = (V c main_arg0 : S50000x128.Idx → Ideal .f32) (ix2 (row t p) k) := by
  obtain ⟨e0, e1⟩ := idx_x t
  unfold iblk1
  rw [View.read_apply]
  show V c main_arg0 _ = V c main_arg0 _
  congr 1
  funext a
  apply Fin.ext
  match a with
  | ⟨0, _⟩ => show win1_0.index t 0 * 2000 + 1 * p.val = t.val * 2000 + p.val; rw [e0]; omega
  | ⟨1, _⟩ => show win1_0.index t 1 * 128 + 1 * k.val = k.val; rw [e1]; omega

/-- So does the summed messages' window. -/
theorem idx_agg : ∀ t : Fin cfg1.N, win1_1.index t (0 : Fin 2) = t.val ∧ win1_1.index t (1 : Fin 2) = 0 :=
  (by decide +kernel : ∀ t : Fin grid1.N, _)
theorem iblk_agg (c : Dev nD) (t : Fin cfg1.N) (p : Fin 2000) (k : Fin 128) :
    (iblk1 V c 1 t : Vec Ideal S2000x128 .f32) (ix2 p k) = (V c main_v14 : S50000x128.Idx → Ideal .f32) (ix2 (row t p) k) := by
  obtain ⟨e0, e1⟩ := idx_agg t
  unfold iblk1
  rw [View.read_apply]
  show V c main_v14 _ = V c main_v14 _
  congr 1
  funext a
  apply Fin.ext
  match a with
  | ⟨0, _⟩ => show win1_1.index t 0 * 2000 + 1 * p.val = t.val * 2000 + p.val; rw [e0]; omega
  | ⟨1, _⟩ => show win1_1.index t 1 * 128 + 1 * k.val = k.val; rw [e1]; omega

/-- So does the importances' window. -/
theorem idx_imp : ∀ t : Fin cfg1.N, win1_2.index t (0 : Fin 2) = t.val ∧ win1_2.index t (1 : Fin 2) = 0 :=
  (by decide +kernel : ∀ t : Fin grid1.N, _)
theorem iblk_imp (c : Dev nD) (t : Fin cfg1.N) (p : Fin 2000) (k : Fin 1) :
    (iblk1 V c 2 t : Vec Ideal S2000x1 .f32) (ix2 p k) = (V c main_arg3 : S50000x1.Idx → Ideal .f32) (ix2 (row t p) k) := by
  obtain ⟨e0, e1⟩ := idx_imp t
  unfold iblk1
  rw [View.read_apply]
  show V c main_arg3 _ = V c main_arg3 _
  congr 1
  funext a
  apply Fin.ext
  match a with
  | ⟨0, _⟩ => show win1_2.index t 0 * 2000 + 1 * p.val = t.val * 2000 + p.val; rw [e0]; omega
  | ⟨1, _⟩ => show win1_2.index t 1 * 1 + 1 * k.val = k.val; rw [e1]; omega

/-! ## The seven windows read whole at every point -/

theorem idx_wc : ∀ t : Fin cfg1.N, win1_3.index t (0 : Fin 2) = 0 ∧ win1_3.index t (1 : Fin 2) = 0 :=
  (by decide +kernel : ∀ t : Fin grid1.N, _)
theorem iblk_wc (c : Dev nD) (t : Fin cfg1.N) :
    (iblk1 V c 3 t : Vec Ideal S128x128 .f32) = (V c main_arg6 : S128x128.Idx → Ideal .f32) := by
  obtain ⟨e0, e1⟩ := idx_wc t
  unfold iblk1
  funext y
  rw [View.read_apply]
  show V c main_arg6 _ = V c main_arg6 y
  congr 1
  funext a
  apply Fin.ext
  match a with
  | ⟨0, _⟩ => show win1_3.index t 0 * 128 + 1 * (y 0).val = (y 0).val; rw [e0]; omega
  | ⟨1, _⟩ => show win1_3.index t 1 * 128 + 1 * (y 1).val = (y 1).val; rw [e1]; omega

theorem idx_bc : ∀ t : Fin cfg1.N, win1_4.index t (0 : Fin 1) = 0 :=
  (by decide +kernel : ∀ t : Fin grid1.N, _)
theorem iblk_bc (c : Dev nD) (t : Fin cfg1.N) :
    (iblk1 V c 4 t : Vec Ideal S128 .f32) = (V c main_arg7 : S128.Idx → Ideal .f32) := by
  have e0 := idx_bc t
  unfold iblk1
  funext y
  rw [View.read_apply]
  show V c main_arg7 _ = V c main_arg7 y
  congr 1
  funext a
  apply Fin.ext
  match a with
  | ⟨0, _⟩ => show win1_4.index t 0 * 128 + 1 * (y 0).val = (y 0).val; rw [e0]; omega

theorem idx_wgm : ∀ t : Fin cfg1.N, win1_5.index t (0 : Fin 2) = 0 ∧ win1_5.index t (1 : Fin 2) = 0 :=
  (by decide +kernel : ∀ t : Fin grid1.N, _)
theorem iblk_wgm (c : Dev nD) (t : Fin cfg1.N) :
    (iblk1 V c 5 t : Vec Ideal S128x128 .f32) = (V c main_v15 : S128x128.Idx → Ideal .f32) := by
  obtain ⟨e0, e1⟩ := idx_wgm t
  unfold iblk1
  funext y
  rw [View.read_apply]
  show V c main_v15 _ = V c main_v15 y
  congr 1
  funext a
  apply Fin.ext
  match a with
  | ⟨0, _⟩ => show win1_5.index t 0 * 128 + 1 * (y 0).val = (y 0).val; rw [e0]; omega
  | ⟨1, _⟩ => show win1_5.index t 1 * 128 + 1 * (y 1).val = (y 1).val; rw [e1]; omega

theorem idx_wgi : ∀ t : Fin cfg1.N, win1_6.index t (0 : Fin 1) = 0 :=
  (by decide +kernel : ∀ t : Fin grid1.N, _)
theorem iblk_wgi (c : Dev nD) (t : Fin cfg1.N) :
    (iblk1 V c 6 t : Vec Ideal S128 .f32) = (V c main_v17 : S128.Idx → Ideal .f32) := by
  have e0 := idx_wgi t
  unfold iblk1
  funext y
  rw [View.read_apply]
  show V c main_v17 _ = V c main_v17 y
  congr 1
  funext a
  apply Fin.ext
  match a with
  | ⟨0, _⟩ => show win1_6.index t 0 * 128 + 1 * (y 0).val = (y 0).val; rw [e0]; omega

theorem idx_bg : ∀ t : Fin cfg1.N, win1_7.index t (0 : Fin 1) = 0 :=
  (by decide +kernel : ∀ t : Fin grid1.N, _)
theorem iblk_bg (c : Dev nD) (t : Fin cfg1.N) :
    (iblk1 V c 7 t : Vec Ideal S128 .f32) = (V c main_arg9 : S128.Idx → Ideal .f32) := by
  have e0 := idx_bg t
  unfold iblk1
  funext y
  rw [View.read_apply]
  show V c main_arg9 _ = V c main_arg9 y
  congr 1
  funext a
  apply Fin.ext
  match a with
  | ⟨0, _⟩ => show win1_7.index t 0 * 128 + 1 * (y 0).val = (y 0).val; rw [e0]; omega

theorem idx_wp : ∀ t : Fin cfg1.N, win1_8.index t (0 : Fin 2) = 0 ∧ win1_8.index t (1 : Fin 2) = 0 :=
  (by decide +kernel : ∀ t : Fin grid1.N, _)
theorem iblk_wp (c : Dev nD) (t : Fin cfg1.N) :
    (iblk1 V c 8 t : Vec Ideal S128x1 .f32) = (V c main_arg10 : S128x1.Idx → Ideal .f32) := by
  obtain ⟨e0, e1⟩ := idx_wp t
  unfold iblk1
  funext y
  rw [View.read_apply]
  show V c main_arg10 _ = V c main_arg10 y
  congr 1
  funext a
  apply Fin.ext
  match a with
  | ⟨0, _⟩ => show win1_8.index t 0 * 128 + 1 * (y 0).val = (y 0).val; rw [e0]; omega
  | ⟨1, _⟩ => show win1_8.index t 1 * 1 + 1 * (y 1).val = (y 1).val; rw [e1]; omega

theorem idx_bp : ∀ t : Fin cfg1.N, win1_9.index t (0 : Fin 1) = 0 :=
  (by decide +kernel : ∀ t : Fin grid1.N, _)
theorem iblk_bp (c : Dev nD) (t : Fin cfg1.N) :
    (iblk1 V c 9 t : Vec Ideal S1 .f32) = (V c main_arg11 : S1.Idx → Ideal .f32) := by
  have e0 := idx_bp t
  unfold iblk1
  funext y
  rw [View.read_apply]
  show V c main_arg11 _ = V c main_arg11 y
  congr 1
  funext a
  apply Fin.ext
  match a with
  | ⟨0, _⟩ => show win1_9.index t 0 * 1 + 1 * (y 0).val = (y 0).val; rw [e0]; omega

/-! ## The two output windows -/

theorem idx_out : ∀ t : Fin cfg1.N, win1_10.index t (0 : Fin 2) = t.val ∧ win1_10.index t (1 : Fin 2) = 0 :=
  (by decide +kernel : ∀ t : Fin grid1.N, _)
theorem emb_out (t : Fin cfg1.N) (p : Fin 2000) (q : Fin 128) :
    ((cfg1.win 10).blk t).view.emb (ix2 p q) = ix2 (row t p) q := by
  obtain ⟨e0, e1⟩ := idx_out t
  funext a
  apply Fin.ext
  match a with
  | ⟨0, _⟩ => show win1_10.index t 0 * 2000 + 1 * p.val = t.val * 2000 + p.val; rw [e0]; omega
  | ⟨1, _⟩ => show win1_10.index t 1 * 128 + 1 * q.val = q.val; rw [e1]; omega
/-- An index of the array is in point `t`'s block iff each coordinate is in the block's range. -/
theorem mem_out (t : Fin cfg1.N) (i : S50000x128.Idx) :
    i ∈ ((cfg1.win 10).blk t).view.set ↔ ∀ a : Fin 2, win1_10.index t a * S2000x128.size a ≤ (i a).val ∧ (i a).val < win1_10.index t a * S2000x128.size a + S2000x128.size a := by
  show i ∈ ((View.whole main_v18_0).slice (win1_10.rect t)).set ↔ _
  rw [View.set_slice_whole, Rect.mem_set_unit]
  exact Iff.rfl
/-- Row `r` is in the block of point `r / 2000`: the 25 blocks tile the array. -/
theorem cover_out (i : S50000x128.Idx) : ∃ t : Fin cfg1.N, (cfg1.win 10).flush t = true ∧ i ∈ ((cfg1.win 10).blk t).view.set := by
  have hi0 : (i 0).val < 50000 := (i 0).isLt
  have hi1 : (i 1).val < 128 := (i 1).isLt
  let t : Fin cfg1.N := ⟨(i 0).val / 2000, Nat.lt_of_lt_of_eq (show (i 0).val / 2000 < 25 by omega) N_1.symm⟩
  obtain ⟨e0, e1⟩ := idx_out t
  have ht : t.val = (i 0).val / 2000 := rfl
  refine ⟨t, flush1_10 t, ?_⟩
  rw [mem_out]
  intro a
  match a with
  | ⟨0, _⟩ => show win1_10.index t 0 * 2000 ≤ (i 0).val ∧ (i 0).val < win1_10.index t 0 * 2000 + 2000; rw [e0, ht]; omega
  | ⟨1, _⟩ => show win1_10.index t 1 * 128 ≤ (i 1).val ∧ (i 1).val < win1_10.index t 1 * 128 + 128; rw [e1]; omega

theorem idx_prop : ∀ t : Fin cfg1.N, win1_11.index t (0 : Fin 2) = t.val ∧ win1_11.index t (1 : Fin 2) = 0 :=
  (by decide +kernel : ∀ t : Fin grid1.N, _)
theorem emb_prop (t : Fin cfg1.N) (p : Fin 2000) (q : Fin 1) :
    ((cfg1.win 11).blk t).view.emb (ix2 p q) = ix2 (row t p) q := by
  obtain ⟨e0, e1⟩ := idx_prop t
  funext a
  apply Fin.ext
  match a with
  | ⟨0, _⟩ => show win1_11.index t 0 * 2000 + 1 * p.val = t.val * 2000 + p.val; rw [e0]; omega
  | ⟨1, _⟩ => show win1_11.index t 1 * 1 + 1 * q.val = q.val; rw [e1]; omega
/-- An index of the array is in point `t`'s block iff each coordinate is in the block's range. -/
theorem mem_prop (t : Fin cfg1.N) (i : S50000x1.Idx) :
    i ∈ ((cfg1.win 11).blk t).view.set ↔ ∀ a : Fin 2, win1_11.index t a * S2000x1.size a ≤ (i a).val ∧ (i a).val < win1_11.index t a * S2000x1.size a + S2000x1.size a := by
  show i ∈ ((View.whole main_v18_1).slice (win1_11.rect t)).set ↔ _
  rw [View.set_slice_whole, Rect.mem_set_unit]
  exact Iff.rfl
/-- Row `r` is in the block of point `r / 2000`: the 25 blocks tile the array. -/
theorem cover_prop (i : S50000x1.Idx) : ∃ t : Fin cfg1.N, (cfg1.win 11).flush t = true ∧ i ∈ ((cfg1.win 11).blk t).view.set := by
  have hi0 : (i 0).val < 50000 := (i 0).isLt
  have hi1 : (i 1).val < 1 := (i 1).isLt
  let t : Fin cfg1.N := ⟨(i 0).val / 2000, Nat.lt_of_lt_of_eq (show (i 0).val / 2000 < 25 by omega) N_1.symm⟩
  obtain ⟨e0, e1⟩ := idx_prop t
  have ht : t.val = (i 0).val / 2000 := rfl
  refine ⟨t, flush1_11 t, ?_⟩
  rw [mem_prop]
  intro a
  match a with
  | ⟨0, _⟩ => show win1_11.index t 0 * 2000 ≤ (i 0).val ∧ (i 0).val < win1_11.index t 0 * 2000 + 2000; rw [e0, ht]; omega
  | ⟨1, _⟩ => show win1_11.index t 1 * 1 ≤ (i 1).val ∧ (i 1).val < win1_11.index t 1 * 1 + 1; rw [e1]; omega

/-- All new features, of the arrays as the region finds them. -/
abbrev outs (c : Dev nD) : S50000x128.Idx → Ideal .f32 :=
  Cert.Spec.out (n := 50000) (V c main_arg0) (V c main_v14) (V c main_arg3) (V c main_arg6) (V c main_arg7) (V c main_v15)
    (V c main_v17) (V c main_arg9)

/-- All propagated importances, of the arrays as the region finds them. -/
abbrev props (c : Dev nD) : S50000x1.Idx → Ideal .f32 :=
  Cert.Spec.prop (n := 50000) (V c main_arg0) (V c main_v14) (V c main_arg3) (V c main_arg6) (V c main_arg7) (V c main_v15)
    (V c main_v17) (V c main_arg9) (V c main_arg10) (V c main_arg11)

/-- What point `t` writes back to the first result is block `t` of the new features. -/
theorem flushed_out (c : Dev nD) (t : Fin cfg1.N) :
    (dat1 V c).flushed 10 t = ((cfg1.win 10).blk t).view.read (Elt Ideal) (outs V c) := by
  show (cfg1.win 10).cut (grid1.coords t) ((dat1 V c).after 10 t) = _
  rw [after1_10, out10_eq]
  funext j
  obtain ⟨p, q, rfl⟩ : ∃ (p : Fin 2000) (q : Fin 128), j = ix2 p q := ⟨j 0, j 1, eq_ix2 j⟩
  show k1_pay2 (F := Ideal) (iblk1 V c 0 t) (iblk1 V c 1 t) (iblk1 V c 3 t) (iblk1 V c 4 t) (iblk1 V c 2 t) (iblk1 V c 5 t)
      (iblk1 V c 6 t) (iblk1 V c 7 t) (ix2 p q)
    = outs V c (((cfg1.win 10).blk t).view.emb (ix2 p q))
  rw [emb_out]
  refine (Payload.node_pay _ _ _ _ _ _ _ _ p q).trans ?_
  rw [iblk_wc, iblk_bc, iblk_wgm, iblk_wgi, iblk_bg]
  exact Cert.Spec.outAt_rows _ _ _ _ _ _ _ _ _ _ _ p (row t p) (fun k => iblk_x V c t p k) (fun k => iblk_agg V c t p k)
    (iblk_imp V c t p 0) q

/-- What point `t` writes back to the second result is block `t` of the propagated importances. -/
theorem flushed_prop (c : Dev nD) (t : Fin cfg1.N) :
    (dat1 V c).flushed 11 t = ((cfg1.win 11).blk t).view.read (Elt Ideal) (props V c) := by
  show (cfg1.win 11).cut (grid1.coords t) ((dat1 V c).after 11 t) = _
  rw [after1_11, out11_eq]
  funext j
  obtain ⟨p, z, rfl⟩ : ∃ (p : Fin 2000) (z : Fin 1), j = ix2 p z := ⟨j 0, j 1, eq_ix2 j⟩
  show k1_pay1 (F := Ideal) (k1_pay3 (F := Ideal) (iblk1 V c 0 t) (iblk1 V c 1 t) (iblk1 V c 3 t) (iblk1 V c 4 t) (iblk1 V c 2 t)
      (iblk1 V c 5 t) (iblk1 V c 6 t) (iblk1 V c 7 t) (iblk1 V c 8 t)) (iblk1 V c 9 t) (ix2 p z)
    = props V c (((cfg1.win 11).blk t).view.emb (ix2 p z))
  rw [emb_prop]
  refine (Payload.prop_pay _ _ _ _ _ _ _ _ _ _ p z).trans ?_
  rw [iblk_wc, iblk_bc, iblk_wgm, iblk_wgi, iblk_bg, iblk_wp, iblk_bp]
  exact Cert.Spec.propAt_rows _ _ _ _ _ _ _ _ _ _ _ _ _ p (row t p) (fun k => iblk_x V c t p k) (fun k => iblk_agg V c t p k)
    (iblk_imp V c t p 0) z

/-- After the region the first result array holds every node's new features … -/
theorem final_out (c : Dev nD) : (dat1 V c).arrAt 10 cfg1.N = outs V c :=
  (dat1 V c).arrAt_eq_of_cover 10 (outs V c) (fun t _ => flushed_out V c t) cover_out

/-- … and the second every node's propagated importance. -/
theorem final_prop (c : Dev nD) : (dat1 V c).arrAt 11 cfg1.N = props V c :=
  (dat1 V c).arrAt_eq_of_cover 11 (props V c) (fun t _ => flushed_prop V c t) cover_prop

end Cert.KernelIdeal.NodeBlocks

end
-- ==== Proof.HostK.lean ====
/-
  What each of the kernel program's two regions finds in its arrays when it is entered, as terms of the launch memory.

  Before the edge region the host computes the source indices from the first row of the edge list (an index below zero
  is moved up by the number of nodes) and gathers the source rows of `x`; the edge attributes and the edge weights are as
  launched. Before the node region the host scatter-adds the edge region's messages into a zero array at the destination
  indices (the second row of the edge list), and cuts the gate's 129-row weight into its first 128 rows and its last
  row; the other arrays the node region reads are as launched.
-/
import proofs.«178301_j3478923510357_1_alg».proof.Proof.Gen.KernelIdeal.Frame
import proofs.«178301_j3478923510357_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.HostK

open Cert.KernelIdeal Idealize.ShloMosaic Idealize.ShloMosaic.TcCoe Idealize.ShloMosaic.ValueIdx
  Idealize.SL.Sem Idealize.ShloMosaic.StableHlo

/-! ## The host's terms -/

/-- The source indices, as a column: row 0 of the edge list, an index below zero moved up by the number of nodes. -/
def srcIdx (a1 : (⟨S2x800000, .i32⟩ : BufTy).Contents (Elt Ideal)) : (⟨S800000x1, .i32⟩ : BufTy).Contents (Elt Ideal) :=
  open Cert.KernelIdeal.Facts₀ in
  broadcastInDim S800000x1 ![0] bcast_S800000_S800000x1_0
    (select
      (cmpi .slt (shapeCast S800000 (extractStridedSlice S1x800000 ![0, 0] a1 slices_S2x800000_S1x800000_0_0) shapeCasts_S1x800000_S800000)
        (broadcastInDim S800000 ![] bcast_S_S800000 (constantI S_ 32 0#32)))
      (addi (shapeCast S800000 (extractStridedSlice S1x800000 ![0, 0] a1 slices_S2x800000_S1x800000_0_0) shapeCasts_S1x800000_S800000)
        (broadcastInDim S800000 ![] bcast_S_S800000 (constantI S_ 32 50000#32)))
      (shapeCast S800000 (extractStridedSlice S1x800000 ![0, 0] a1 slices_S2x800000_S1x800000_0_0) shapeCasts_S1x800000_S800000))

/-- The destination indices, as a column: row 1 of the edge list. -/
def dstIdx (a1 : (⟨S2x800000, .i32⟩ : BufTy).Contents (Elt Ideal)) : (⟨S800000x1, .i32⟩ : BufTy).Contents (Elt Ideal) :=
  open Cert.KernelIdeal.Facts₀ in
  broadcastInDim S800000x1 ![0] bcast_S800000_S800000x1_0
    (shapeCast S800000 (extractStridedSlice S1x800000 ![1, 0] a1 slices_S2x800000_S1x800000_1_0) shapeCasts_S1x800000_S800000)

/-- The array the messages are summed into: the word of 0.0 at every node and feature. -/
def zeros : (⟨S50000x128, .f32⟩ : BufTy).Contents (Elt Ideal) :=
  open Cert.KernelIdeal.Facts₀ in
  broadcastInDim S50000x128 ![] bcast_S_S50000x128 (constant (F := Ideal) S_ .f32 0x00000000#32)

open Cert.KernelIdeal.Gen

variable (m : (ℓ : Loc nD τ sig) → Buf (Elt Ideal) ℓ) (ρ : Dev nD → PrngReg)

/-- No operation of a literal stretch writes a given literal reference: each operation writes its one result, and that
    is another reference. -/
local macro "no_write" : tactic =>
  `(tactic| (refine List.forall_iff_forall_mem.mp ?_
             simp only [hostOps0, hostOps1, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## The edge region's entry -/

theorem entry0_arg2 (c : Dev nD) : V1 m ρ c main_arg2 = m ((c : Thread nD τ).loc main_arg2) :=
  StableHlo.after_of_forall_not_mem (b := Proc.devRef .tc main_arg2) hostOps0 (W0 m ρ c) (by no_write)

theorem entry0_arg4 (c : Dev nD) : V1 m ρ c main_arg4 = m ((c : Thread nD τ).loc main_arg4) :=
  StableHlo.after_of_forall_not_mem (b := Proc.devRef .tc main_arg4) hostOps0 (W0 m ρ c) (by no_write)

theorem entry0_arg5 (c : Dev nD) : V1 m ρ c main_arg5 = m ((c : Thread nD τ).loc main_arg5) :=
  StableHlo.after_of_forall_not_mem (b := Proc.devRef .tc main_arg5) hostOps0 (W0 m ρ c) (by no_write)

/-- The source rows the edge region reads: `x` gathered at the source indices. -/
theorem entry0_xs (c : Dev nD) :
    V1 m ρ c main_v10 = Host.gather gather_S50000x128_S800000x1_S800000x128_1_0_n_n_0_1_1128
      (m ((c : Thread nD τ).loc main_arg0)) (srcIdx (m ((c : Thread nD τ).loc main_arg1))) := by
  show StableHlo.after hostOps0 (W0 m ρ c) (Proc.devRef .tc main_v10) = _
  after_results
  rfl

/-! ## The node region's entry -/

/-- A buffer that is no array of the edge region and that neither stretch of host operations writes is, at the node
    region's entry, as launched. -/
theorem W2_arg (c : Dev nD) (b : Ref sig .tc) (hb : ∀ w, Pipeline.arrRef spec0 w ≠ b)
    (h1 : ∀ op ∈ (hostOps1 : List (HloOp τ sig (Elt Ideal))), Proc.devRef .tc b ∉ op.writes)
    (h0 : ∀ op ∈ (hostOps0 : List (HloOp τ sig (Elt Ideal))), Proc.devRef .tc b ∉ op.writes) :
    V3 m ρ c b = m ((c : Thread nD τ).loc b) :=
  calc W3 m ρ c (Proc.devRef .tc b)
    _ = W2 m ρ c (Proc.devRef .tc b) := StableHlo.after_of_forall_not_mem (b := Proc.devRef .tc b) hostOps1 (W2 m ρ c) h1
    _ = W1 m ρ c (Proc.devRef .tc b) := W2_of_ne m ρ c b hb
    _ = W0 m ρ c (Proc.devRef .tc b) := StableHlo.after_of_forall_not_mem (b := Proc.devRef .tc b) hostOps0 (W0 m ρ c) h0
    _ = m ((c : Thread nD τ).loc b) := rfl

theorem entry1_arg0 (c : Dev nD) : V3 m ρ c main_arg0 = m ((c : Thread nD τ).loc main_arg0) := W2_arg m ρ c main_arg0 (by decide) (by no_write) (by no_write)

theorem entry1_arg3 (c : Dev nD) : V3 m ρ c main_arg3 = m ((c : Thread nD τ).loc main_arg3) := W2_arg m ρ c main_arg3 (by decide) (by no_write) (by no_write)

theorem entry1_arg6 (c : Dev nD) : V3 m ρ c main_arg6 = m ((c : Thread nD τ).loc main_arg6) := W2_arg m ρ c main_arg6 (by decide) (by no_write) (by no_write)

theorem entry1_arg7 (c : Dev nD) : V3 m ρ c main_arg7 = m ((c : Thread nD τ).loc main_arg7) := W2_arg m ρ c main_arg7 (by decide) (by no_write) (by no_write)

theorem entry1_arg9 (c : Dev nD) : V3 m ρ c main_arg9 = m ((c : Thread nD τ).loc main_arg9) := W2_arg m ρ c main_arg9 (by decide) (by no_write) (by no_write)

theorem entry1_arg10 (c : Dev nD) : V3 m ρ c main_arg10 = m ((c : Thread nD τ).loc main_arg10) := W2_arg m ρ c main_arg10 (by decide) (by no_write) (by no_write)

theorem entry1_arg11 (c : Dev nD) : V3 m ρ c main_arg11 = m ((c : Thread nD τ).loc main_arg11) := W2_arg m ρ c main_arg11 (by decide) (by no_write) (by no_write)

/-- At the edge region's exit the second row of the edge list, reshaped, is what the first stretch left. -/
theorem W2_v3 (c : Dev nD) : W2 m ρ c (Proc.devRef .tc main_v3)
    = shapeCast S800000 (extractStridedSlice S1x800000 ![1, 0] (m ((c : Thread nD τ).loc main_arg1)) slices_S2x800000_S1x800000_1_0)
        shapeCasts_S1x800000_S800000 := by
  rw [W2_of_ne m ρ c main_v3 (by decide)]
  show StableHlo.after hostOps0 (W0 m ρ c) (Proc.devRef .tc main_v3) = _
  after_results
  rfl

/-- At the edge region's exit the gate's weight is as launched. -/
theorem W2_arg8 (c : Dev nD) : W2 m ρ c (Proc.devRef .tc main_arg8) = m ((c : Thread nD τ).loc main_arg8) :=
  (W2_of_ne m ρ c main_arg8 (by decide)).trans
    (StableHlo.after_of_forall_not_mem (b := Proc.devRef .tc main_arg8) hostOps0 (W0 m ρ c) (by no_write))

/-- The summed messages the node region reads: the edge region's output scatter-added into the zero array at the
    destination indices. -/
theorem entry1_agg (c : Dev nD) :
    V3 m ρ c main_v14 = Host.scatterAdd (F := Ideal) (φ := .f32) scatter_S50000x128_S800000x1_S800000x128_1_0_0_1 zeros
      (dstIdx (m ((c : Thread nD τ).loc main_arg1))) ((dat0 (V1 m ρ) c).arrAt 4 cfg0.N) := by
  show StableHlo.after hostOps1 (W2 m ρ c) (Proc.devRef .tc main_v14) = _
  after_results
  rw [W2_v3, W2_arr m ρ c 4]
  rfl

/-- The first 128 rows of a 129-row array, sliced. -/
theorem slice_wgMain (a8 : (⟨S129x128, .f32⟩ : BufTy).Contents (Elt Ideal)) :
    extractStridedSlice S128x128 ![0, 0] a8 slices_S129x128_S128x128_0_0 = Cert.Spec.wgMain a8 := by
  funext i
  obtain ⟨k, j, rfl⟩ : ∃ (k j : Fin 128), i = ix2 k j := ⟨i 0, i 1, eq_ix2 i⟩
  rw [Cert.Spec.wgMain_apply]
  exact extractStridedSlice_apply ![0, 0] a8 slices_S129x128_S128x128_0_0 (ix2 k j) (ix2 (Fin.castSucc k) j) (fun a => match a with
    | ⟨0, _⟩ => by show k.val = 0 + k.val; omega
    | ⟨1, _⟩ => by show j.val = 0 + j.val; omega)

/-- Its last row, sliced and reshaped to a vector. -/
theorem slice_wgImp (a8 : (⟨S129x128, .f32⟩ : BufTy).Contents (Elt Ideal)) :
    shapeCast S128 (extractStridedSlice S1x128 ![128, 0] a8 slices_S129x128_S1x128_128_0) shapeCasts_S1x128_S128
      = Cert.Spec.wgImp a8 := by
  funext i
  obtain ⟨j, rfl⟩ : ∃ j : Fin 128, i = ix1 j := ⟨i 0, eq_ix1 i⟩
  rw [Cert.Spec.wgImp_apply, shapeCast_apply _ shapeCasts_S1x128_S128 (ix1 j) (ix2 (0 : Fin 1) j) (by
    rw [Shape.rowMajor_val_two, Shape.rowMajor_val_one]
    show 0 * 128 + j.val = j.val
    omega)]
  exact extractStridedSlice_apply ![128, 0] a8 slices_S129x128_S1x128_128_0 (ix2 (0 : Fin 1) j) (ix2 (Fin.last 128) j) (fun a => match a with
    | ⟨0, _⟩ => by show 128 = 128 + 0; rfl
    | ⟨1, _⟩ => by show j.val = 0 + j.val; omega)

/-- The weight the node region multiplies the convolved features by: the first 128 rows of the gate's weight. -/
theorem entry1_wgm (c : Dev nD) : V3 m ρ c main_v15 = Cert.Spec.wgMain (m ((c : Thread nD τ).loc main_arg8)) := by
  show StableHlo.after hostOps1 (W2 m ρ c) (Proc.devRef .tc main_v15) = _
  after_results
  rw [W2_arg8]
  exact slice_wgMain _

/-- The weight it multiplies the importance by: the last row of the gate's weight. -/
theorem entry1_wgi (c : Dev nD) : V3 m ρ c main_v17 = Cert.Spec.wgImp (m ((c : Thread nD τ).loc main_arg8)) := by
  show StableHlo.after hostOps1 (W2 m ρ c) (Proc.devRef .tc main_v17) = _
  after_results
  rw [W2_arg8]
  exact slice_wgImp _

end Cert.KernelIdeal.HostK

end
-- ==== Proof.KernelValue.lean ====
/-
  The kernel program's two results as functions of the launch memory.
  The edge region leaves every message in its output array; the host sums the messages into their destination nodes; the
  node region leaves every node's new features and propagated importance in the two result arrays. Reading each region's
  arrays back through the host operations to the launch memory, the results are the specification's `out` and `prop` of
  the twelve arguments, with the summed messages `agg` the host's scatter-add of the specification's messages over the
  host's gather of the source rows.
-/
import proofs.«178301_j3478923510357_1_alg».proof.Proof.Gen.KernelIdeal.Frame
import proofs.«178301_j3478923510357_1_alg».proof.Proof.EdgeBlocks
import proofs.«178301_j3478923510357_1_alg».proof.Proof.NodeBlocks
import proofs.«178301_j3478923510357_1_alg».proof.Proof.HostK
import proofs.«178301_j3478923510357_1_alg».proof.Proof.Spec

set_option maxRecDepth 16384

noncomputable section

namespace Cert.KernelIdeal.Whole

open Cert.KernelIdeal Cert.KernelIdeal.Gen Cert.KernelIdeal.HostK Idealize.ShloMosaic Idealize.ShloMosaic.TcCoe Idealize.SL.Sem

/-! ## The specification's functions respect equality of their arguments -/

theorem msg_congr {ea ea' : FVec Ideal ⟨2, ![800000, 32]⟩ .f32} {xs xs' : FVec Ideal ⟨2, ![800000, 128]⟩ .f32}
    {We We' : FVec Ideal ⟨2, ![32, 128]⟩ .f32} {be be' : FVec Ideal ⟨1, ![128]⟩ .f32}
    (h1 : ea = ea') (h2 : xs = xs') (h3 : We = We') (h4 : be = be') :
    Cert.Spec.msg (n := 800000) ea xs We be = Cert.Spec.msg (n := 800000) ea' xs' We' be' := by
  subst h1 h2 h3 h4; rfl

theorem out_congr {x x' agg agg' : FVec Ideal ⟨2, ![50000, 128]⟩ .f32} {imp imp' : FVec Ideal ⟨2, ![50000, 1]⟩ .f32}
    {Wc Wc' : FVec Ideal ⟨2, ![128, 128]⟩ .f32} {bc bc' : FVec Ideal ⟨1, ![128]⟩ .f32} {WgM WgM' : FVec Ideal ⟨2, ![128, 128]⟩ .f32}
    {WgI WgI' bg bg' : FVec Ideal ⟨1, ![128]⟩ .f32}
    (h0 : x = x') (h1 : agg = agg') (h2 : imp = imp') (h3 : Wc = Wc') (h4 : bc = bc') (h5 : WgM = WgM') (h6 : WgI = WgI')
    (h7 : bg = bg') :
    Cert.Spec.out (n := 50000) x agg imp Wc bc WgM WgI bg = Cert.Spec.out (n := 50000) x' agg' imp' Wc' bc' WgM' WgI' bg' := by
  subst h0 h1 h2 h3 h4 h5 h6 h7; rfl

theorem prop_congr {x x' agg agg' : FVec Ideal ⟨2, ![50000, 128]⟩ .f32} {imp imp' : FVec Ideal ⟨2, ![50000, 1]⟩ .f32}
    {Wc Wc' : FVec Ideal ⟨2, ![128, 128]⟩ .f32} {bc bc' : FVec Ideal ⟨1, ![128]⟩ .f32} {WgM WgM' : FVec Ideal ⟨2, ![128, 128]⟩ .f32}
    {WgI WgI' bg bg' : FVec Ideal ⟨1, ![128]⟩ .f32} {Wp Wp' : FVec Ideal ⟨2, ![128, 1]⟩ .f32} {bp bp' : FVec Ideal ⟨1, ![1]⟩ .f32}
    (h0 : x = x') (h1 : agg = agg') (h2 : imp = imp') (h3 : Wc = Wc') (h4 : bc = bc') (h5 : WgM = WgM') (h6 : WgI = WgI')
    (h7 : bg = bg') (h8 : Wp = Wp') (h9 : bp = bp') :
    Cert.Spec.prop (n := 50000) x agg imp Wc bc WgM WgI bg Wp bp
      = Cert.Spec.prop (n := 50000) x' agg' imp' Wc' bc' WgM' WgI' bg' Wp' bp' := by
  subst h0 h1 h2 h3 h4 h5 h6 h7 h8 h9; rfl

variable (m : (ℓ : Loc nD τ sig) → Buf (Elt Ideal) ℓ) (ρ : Dev nD → PrngReg)

/-- Every message, of the launch memory: the specification's messages over the gathered source rows. -/
def msgs (c : Dev nD) : FVec Ideal S800000x128 .f32 :=
  Cert.Spec.msg (n := 800000) (m ((c : Thread nD τ).loc main_arg2))
    (Host.gather gather_S50000x128_S800000x1_S800000x128_1_0_n_n_0_1_1128 (m ((c : Thread nD τ).loc main_arg0)) (srcIdx (m ((c : Thread nD τ).loc main_arg1))))
    (m ((c : Thread nD τ).loc main_arg4)) (m ((c : Thread nD τ).loc main_arg5))

/-- The messages summed into their destination nodes. -/
def agg (c : Dev nD) : FVec Ideal S50000x128 .f32 :=
  Host.scatterAdd (F := Ideal) (φ := .f32) scatter_S50000x128_S800000x1_S800000x128_1_0_0_1 zeros (dstIdx (m ((c : Thread nD τ).loc main_arg1))) (msgs m c)

/-- After the edge region its output array holds the messages. -/
theorem edge_final (c : Dev nD) : (dat0 (V1 m ρ) c).arrAt 4 cfg0.N = msgs m c :=
  (EdgeBlocks.final (V1 m ρ) c).trans
    (msg_congr (entry0_arg2 m ρ c) (entry0_xs m ρ c) (entry0_arg4 m ρ c) (entry0_arg5 m ρ c))

/-- What the node region finds as the summed messages. -/
theorem agg_entry (c : Dev nD) : V3 m ρ c main_v14 = agg m c :=
  (entry1_agg m ρ c).trans
    (congrArg (Host.scatterAdd (F := Ideal) (φ := .f32) scatter_S50000x128_S800000x1_S800000x128_1_0_0_1 zeros (dstIdx (m ((c : Thread nD τ).loc main_arg1))))
      (edge_final m ρ c))

/-- The first result: every node's new features. -/
theorem res0 (c : Dev nD) : W4 m ρ c (Proc.devRef .tc main_v18_0)
    = Cert.Spec.out (n := 50000) (m ((c : Thread nD τ).loc main_arg0)) (agg m c) (m ((c : Thread nD τ).loc main_arg3)) (m ((c : Thread nD τ).loc main_arg6)) (m ((c : Thread nD τ).loc main_arg7)) (Cert.Spec.wgMain (m ((c : Thread nD τ).loc main_arg8))) (Cert.Spec.wgImp (m ((c : Thread nD τ).loc main_arg8))) (m ((c : Thread nD τ).loc main_arg9)) :=
  (W4_arr m ρ c 10).trans ((NodeBlocks.final_out (V3 m ρ) c).trans
    (out_congr (entry1_arg0 m ρ c) (agg_entry m ρ c) (entry1_arg3 m ρ c) (entry1_arg6 m ρ c) (entry1_arg7 m ρ c)
      (entry1_wgm m ρ c) (entry1_wgi m ρ c) (entry1_arg9 m ρ c)))

/-- The second result: every node's propagated importance. -/
theorem res1 (c : Dev nD) : W4 m ρ c (Proc.devRef .tc main_v18_1)
    = Cert.Spec.prop (n := 50000) (m ((c : Thread nD τ).loc main_arg0)) (agg m c) (m ((c : Thread nD τ).loc main_arg3)) (m ((c : Thread nD τ).loc main_arg6)) (m ((c : Thread nD τ).loc main_arg7)) (Cert.Spec.wgMain (m ((c : Thread nD τ).loc main_arg8))) (Cert.Spec.wgImp (m ((c : Thread nD τ).loc main_arg8))) (m ((c : Thread nD τ).loc main_arg9))
        (m ((c : Thread nD τ).loc main_arg10)) (m ((c : Thread nD τ).loc main_arg11)) :=
  (W4_arr m ρ c 11).trans ((NodeBlocks.final_prop (V3 m ρ) c).trans
    (prop_congr (entry1_arg0 m ρ c) (agg_entry m ρ c) (entry1_arg3 m ρ c) (entry1_arg6 m ρ c) (entry1_arg7 m ρ c)
      (entry1_wgm m ρ c) (entry1_wgi m ρ c) (entry1_arg9 m ρ c) (entry1_arg10 m ρ c) (entry1_arg11 m ρ c)))

end Cert.KernelIdeal.Whole

end
-- ==== Proof.lean ====
/-
  One graph layer: every edge forms a message from its source node's features and its own attributes, the messages are
  summed into their destination nodes, and every node is updated by a gated mix of its convolved features and its old
  ones; a second result is each node's updated row through one more linear map.

  The kernel computes the messages in one tiled region (200 blocks of 4000 edges) and the node update in another (25
  blocks of 2000 nodes), gathering the source rows and summing the messages on the host in between; the reference does
  all of it on the host. At the extended reals both are the specification's functions of the twelve arguments
  (Proof/Spec.lean): a change of float format is the identity; a matrix product into a zero accumulator is the plain sum;
  a block's rows only depend on the same rows of the inputs, and the blocks tile the arrays; the reference's product of
  `x` with the literal one is `x`; its one 129-term sum for the gate splits into the kernel's 128-term sum plus the
  importance's term; the logistic function is by definition `1 / (1 + exp (-z))`. None of these laws needs its operands to
  be finite, so the precondition is not used. The gather of the source rows and the scatter-add of the messages are the
  same host operations on the same operands in both programs.

  The three frames are the programs' runs with the results forgotten; the idealization rewrote nothing, so there is
  nothing for it to preserve.
-/
import proofs.«178301_j3478923510357_1_alg».proof.Defs
import proofs.«178301_j3478923510357_1_alg».proof.Proof.Gen.Kernel
import proofs.«178301_j3478923510357_1_alg».proof.Proof.Gen.Kernel.Skeleton
import proofs.«178301_j3478923510357_1_alg».proof.Proof.Gen.Kernel.Launch
import proofs.«178301_j3478923510357_1_alg».proof.Proof.Gen.Kernel.Points
import proofs.«178301_j3478923510357_1_alg».proof.Proof.Gen.Kernel.Frame
import proofs.«178301_j3478923510357_1_alg».proof.Proof.Gen.KernelIdeal
import proofs.«178301_j3478923510357_1_alg».proof.Proof.Gen.KernelIdeal.Skeleton
import proofs.«178301_j3478923510357_1_alg».proof.Proof.Gen.KernelIdeal.Launch
import proofs.«178301_j3478923510357_1_alg».proof.Proof.Gen.KernelIdeal.Points
import proofs.«178301_j3478923510357_1_alg».proof.Proof.Gen.KernelIdeal.Frame
import proofs.«178301_j3478923510357_1_alg».proof.Proof.Gen.ReferenceIdeal
import proofs.«178301_j3478923510357_1_alg».proof.Proof.Gen.Pre_finite_inputs
import proofs.«178301_j3478923510357_1_alg».proof.Proof.Gen.ReferenceIdeal.Run
import proofs.«178301_j3478923510357_1_alg».proof.Proof.Gen.ReferenceIdeal.Read
import proofs.«178301_j3478923510357_1_alg».proof.Proof.RefSide
import proofs.«178301_j3478923510357_1_alg».proof.Proof.RunK
import proofs.«178301_j3478923510357_1_alg».proof.Proof.KernelValue
import Idealize.ShloMosaic.Adequacy
import Idealize.ShloMosaic.Init

noncomputable section

namespace Cert.Proof

open Idealize.ShloMosaic Idealize.ShloMosaic.TcCoe Idealize.SL.Sem

/-- The kernel's source-row gather is the reference's: the same host operation on the same index chain. -/
theorem gather_same (a0 : (⟨Cert.KernelIdeal.S50000x128, .f32⟩ : BufTy).Contents (Elt Ideal))
    (a1 : (⟨Cert.KernelIdeal.S2x800000, .i32⟩ : BufTy).Contents (Elt Ideal)) :
    Host.gather Cert.KernelIdeal.gather_S50000x128_S800000x1_S800000x128_1_0_n_n_0_1_1128 a0 (Cert.KernelIdeal.HostK.srcIdx a1)
      = Cert.ReferenceIdeal.Read.val_main_v14 (F := Ideal) a0 a1 := rfl

/-- The kernel's scatter-add of an array of messages is the reference's: the same host operation from the same zero array
    along the same destination indices. -/
theorem scatter_same (a1 : (⟨Cert.KernelIdeal.S2x800000, .i32⟩ : BufTy).Contents (Elt Ideal))
    (M : FVec Ideal Cert.KernelIdeal.S800000x128 .f32) :
    Host.scatterAdd (F := Ideal) Cert.KernelIdeal.scatter_S50000x128_S800000x1_S800000x128_1_0_0_1 Cert.KernelIdeal.HostK.zeros
        (Cert.KernelIdeal.HostK.dstIdx a1) M
      = Host.scatterAdd (F := Ideal) Cert.ReferenceIdeal.scatter_S50000x128_S800000x1_S800000x128_1_0_0_1
          (Cert.ReferenceIdeal.Read.val_main_v17 (F := Ideal)) (Cert.ReferenceIdeal.Read.val_main_v18 (F := Ideal) a1) M := rfl

/-- The kernel's summed messages are the reference's. -/
theorem agg_same (m : (ℓ : Loc Cert.KernelIdeal.nD Cert.KernelIdeal.τ Cert.KernelIdeal.sig) → Buf (Elt Ideal) ℓ)
    (c : Dev Cert.KernelIdeal.nD) :
    Cert.KernelIdeal.Whole.agg m c
      = Cert.ReferenceIdeal.Read.val_main_v19 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  unfold Cert.KernelIdeal.Whole.agg Cert.KernelIdeal.Whole.msgs Cert.ReferenceIdeal.Read.val_main_v19
  rw [Cert.ReferenceIdeal.RefValue.msg_eq, gather_same, scatter_same]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the specification's new features and propagated importances of the arguments. -/
theorem algebraic : Cert.algebraic_KernelIdeal_ReferenceIdeal := by
  intro m ρ m' ρ' _ hagree
  refine ⟨fun c => Cert.Spec.out (n := 50000) (m ((c.tc : Thread Cert.KernelIdeal.nD Cert.KernelIdeal.τ).loc Cert.KernelIdeal.main_arg0)) (Cert.KernelIdeal.Whole.agg m c) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        (Cert.Spec.wgMain (m ((c.tc : Thread Cert.KernelIdeal.nD Cert.KernelIdeal.τ).loc Cert.KernelIdeal.main_arg8))) (Cert.Spec.wgImp (m ((c.tc : Thread Cert.KernelIdeal.nD Cert.KernelIdeal.τ).loc Cert.KernelIdeal.main_arg8))) (m ((c.tc : Thread Cert.KernelIdeal.nD Cert.KernelIdeal.τ).loc Cert.KernelIdeal.main_arg9)),
      fun c => Cert.Spec.prop (n := 50000) (m ((c.tc : Thread Cert.KernelIdeal.nD Cert.KernelIdeal.τ).loc Cert.KernelIdeal.main_arg0)) (Cert.KernelIdeal.Whole.agg m c) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        (Cert.Spec.wgMain (m ((c.tc : Thread Cert.KernelIdeal.nD Cert.KernelIdeal.τ).loc Cert.KernelIdeal.main_arg8))) (Cert.Spec.wgImp (m ((c.tc : Thread Cert.KernelIdeal.nD Cert.KernelIdeal.τ).loc Cert.KernelIdeal.main_arg8))) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Whole.res0 m ρ c), (h c).2.1.trans (Cert.KernelIdeal.Whole.res1 m ρ c), (h c).2.2⟩)
      (Cert.KernelIdeal.RunK.run_named (F := Ideal) m ρ)
  · refine (θ_run Cert.ReferenceIdeal.defs _ _).mono (fun r h c => ?_) (Cert.ReferenceIdeal.Value.run (F := Ideal) m' ρ')
    obtain ⟨h0, h1, h2, h3, h4, h5, h6, h7, h8, h9, h10, h11⟩ := hagree c
    refine ⟨(h c).1.trans ?_, (h c).2.1.trans ?_, (h c).2.2⟩
    · rw [Cert.ReferenceIdeal.Read.val_main_v42_eq, h0, h1, h2, h3, h4, h5, h6, h7, h8, h9,
        Cert.ReferenceIdeal.RefValue.out_eq, ← agg_same m c]
    · rw [Cert.ReferenceIdeal.Read.val_main_v46_eq, h0, h1, h2, h3, h4, h5, h6, h7, h8, h9, h10, h11,
        Cert.ReferenceIdeal.RefValue.prop_eq, ← agg_same m c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
